-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S16x2048x2048 : Shape := ⟨3, ![16, 2048, 2048]⟩
abbrev S2047x2047 : Shape := ⟨2, ![2047, 2047]⟩
abbrev S1024x1024 : Shape := ⟨2, ![1024, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg8 : FVec F S1024 .f32) (main_arg9 : FVec F S1024x1024 .f32) (main_arg10 : FVec F S1024 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg9
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg10
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S16x2048x2048 1) : IVec S_ 1 :=
  let main_c_5 : IVec S_ 1 := constantI S_ 1 1#1
  let main_v17 : IVec S_ 1 := (fun x v => Host.reduce IntOp.andi x v reducesTo_S16x2048x2048_S_d0_1_2 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg7
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg8 main_arg9 main_arg10 main_v33

def fn {F : FTy → Type} [FloatOps F] (main_arg0 : FVec F S2048x1024 .f32) (main_arg1 : FVec F S2048x1024 .f32) (main_arg2 : FVec F S2048x1024 .f32) (main_arg3 : FVec F S16x2048x2048 .f32) (main_arg4 : IVec S2047x2047 32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S16x2048x2048 .f32 := Host.absf main_arg3
  let main_cst_4 : FVec F S_ .f32 := constant S_ .f32 0x7F800000#32
  let main_v15 : FVec F S16x2048x2048 .f32 := broadcastInDim S16x2048x2048 ![] bcast_S_S16x2048x2048 main_cst_4
  let main_v16 : IVec S16x2048x2048 1 := cmpf .olt main_v14 main_v15
  fn_part1 (F := F) main_arg5 main_arg6 main_arg7 main_arg8 main_arg9 main_arg10 main_v13 main_v16
-- ==== Kernel.lean ====
abbrev S2048x1024 : Shape := ⟨2, ![2048, 1024]⟩
abbrev S16x2048x2048 : Shape := ⟨3, ![16, 2048, 2048]⟩
abbrev S2047x2047 : Shape := ⟨2, ![2047, 2047]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S2048x16x64 : Shape := ⟨3, ![2048, 16, 64]⟩
abbrev S16x2048x64 : Shape := ⟨3, ![16, 2048, 64]⟩
abbrev S_ : Shape := ⟨0, ![]⟩
abbrev S2048x2048 : Shape := ⟨2, ![2048, 2048]⟩
abbrev S1 : Shape := ⟨1, ![1]⟩
abbrev S2 : Shape := ⟨1, ![2]⟩
abbrev S1x256x64 : Shape := ⟨3, ![1, 256, 64]⟩
abbrev S1x2048x64 : Shape := ⟨3, ![1, 2048, 64]⟩
abbrev S1x256x2048 : Shape := ⟨3, ![1, 256, 2048]⟩
abbrev S256x2048 : Shape := ⟨2, ![256, 2048]⟩
abbrev S256x64 : Shape := ⟨2, ![256, 64]⟩
abbrev S2048x64 : Shape := ⟨2, ![2048, 64]⟩
abbrev S64x2048 : Shape := ⟨2, ![64, 2048]⟩
abbrev S256 : Shape := ⟨1, ![256]⟩
abbrev S256x1 : Shape := ⟨2, ![256, 1]⟩

abbrev nBuf : Space → Nat
  | .hbm => 37
  | .vmem => 30
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S16x2048x2048, .f32⟩
  | .hbm, ⟨4, _⟩ => ⟨S2047x2047, .i32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x16x64, .f32⟩
  | .hbm, ⟨18, _⟩ => ⟨S16x2048x64, .f32⟩
  | .hbm, ⟨19, _⟩ => ⟨S2048x16x64, .f32⟩
  | .hbm, ⟨20, _⟩ => ⟨S16x2048x64, .f32⟩
  | .hbm, ⟨21, _⟩ => ⟨S16x2048x64, .bf16⟩
  | .hbm, ⟨22, _⟩ => ⟨S2048x16x64, .f32⟩
  | .hbm, ⟨23, _⟩ => ⟨S16x2048x64, .f32⟩
  | .hbm, ⟨24, _⟩ => ⟨S16x2048x64, .bf16⟩
  | .hbm, ⟨25, _⟩ => ⟨S2047x2047, .bf16⟩
  | .hbm, ⟨26, _⟩ => ⟨S_, .bf16⟩
  | .hbm, ⟨27, _⟩ => ⟨S2048x2048, .bf16⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S2048x2048, .bf16⟩
  | .hbm, ⟨34, _⟩ => ⟨S16x2048x64, .f32⟩
  | .hbm, ⟨35, _⟩ => ⟨S2048x16x64, .f32⟩
  | .hbm, ⟨36, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x256x64, .f32⟩
  | .local _ .vmem, ⟨19, _⟩ => ⟨S1x256x64, .f32⟩
  | .local _ .vmem, ⟨20, _⟩ => ⟨S1x2048x64, .bf16⟩
  | .local _ .vmem, ⟨21, _⟩ => ⟨S1x2048x64, .bf16⟩
  | .local _ .vmem, ⟨22, _⟩ => ⟨S1x2048x64, .bf16⟩
  | .local _ .vmem, ⟨23, _⟩ => ⟨S1x2048x64, .bf16⟩
  | .local _ .vmem, ⟨24, _⟩ => ⟨S1x256x2048, .f32⟩
  | .local _ .vmem, ⟨25, _⟩ => ⟨S1x256x2048, .f32⟩
  | .local _ .vmem, ⟨26, _⟩ => ⟨S256x2048, .bf16⟩
  | .local _ .vmem, ⟨27, _⟩ => ⟨S256x2048, .bf16⟩
  | .local _ .vmem, ⟨28, _⟩ => ⟨S1x256x64, .f32⟩
  | .local _ .vmem, ⟨29, _⟩ => ⟨S1x256x64, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_c_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![8, 16], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage3_0 : Fin 2 → Memref sig .tc .vmem S1x256x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1x256x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S256x2048 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1x256x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

class Facts₀ : Prop where
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S2048x1024_S2048x16x64 : S2048x1024.ShapeCasts S2048x16x64
  transposes_S2048x16x64_S16x2048x64_1_0_2 : S2048x16x64.Transposes [1, 0, 2] S16x2048x64
  bcast_S_S2048x2048 : S_.BroadcastsInDim S2048x2048 (![] : Fin 0 → Fin S2048x2048.rank)
  bcast_S_S1 : S_.BroadcastsInDim S1 (![] : Fin 0 → Fin S1.rank)
  concatenates_S1_S1_S2_d0 : Shape.Concatenates [S1, S1] S2 0
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x64_S1x256x64 : S256x64.ShapeCasts S1x256x64
  transposes_S16x2048x64_S2048x16x64_1_0_2 : S16x2048x64.Transposes [1, 0, 2] S2048x16x64
  shapeCasts_S2048x16x64_S2048x1024 : S2048x16x64.ShapeCasts S2048x1024
  dot_S512x1024_S1024x1024_S512x1024_1_0_0_1_n_n_wf : DotDims.WF S512x1024 S1024x1024 S512x1024 [1] [0] [0] [1] [] []
  scatter_S2048x2048_S2_S2047x2047_01_n_01_0_wf : ScatterDims.WF S2048x2048 S2 S2047x2047 [0, 1] [] [0, 1] 0
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .f32 = 32 ∨ (Rect.block (s := S2048x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S2048x1024.size a
  hwx0_3 : ∀ i : grid0.Coords, EltTy.bits .f32 = 32 ∨ (Rect.block (s := S2048x1024) S512x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S2048x1024.size a
  hwx1_0 : ∀ i : grid1.Coords, EltTy.bits .f32 = 32 ∨ (Rect.block (s := S2048x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S2048x1024.size a
  hwx1_3 : ∀ i : grid1.Coords, EltTy.bits .f32 = 32 ∨ (Rect.block (s := S2048x1024) S512x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S2048x1024.size a
  hwx2_0 : ∀ i : grid2.Coords, EltTy.bits .f32 = 32 ∨ (Rect.block (s := S2048x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S2048x1024.size a
  hwx2_3 : ∀ i : grid2.Coords, EltTy.bits .f32 = 32 ∨ (Rect.block (s := S2048x1024) S512x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x64.size a ≤ S16x2048x64.size a
  hwx3_0 : ∀ i : grid3.Coords, EltTy.bits .f32 = 32 ∨ (Rect.block (s := S16x2048x64) S1x256x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x64.size a ≤ S16x2048x64.size a
  hwx3_1 : ∀ i : grid3.Coords, EltTy.bits .bf16 = 32 ∨ (Rect.block (s := S16x2048x64) S1x2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x64.size a ≤ S16x2048x64.size a
  hwx3_2 : ∀ i : grid3.Coords, EltTy.bits .bf16 = 32 ∨ (Rect.block (s := S16x2048x64) S1x2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x256x2048.size a ≤ S16x2048x2048.size a
  hwx3_3 : ∀ i : grid3.Coords, EltTy.bits .f32 = 32 ∨ (Rect.block (s := S16x2048x2048) S1x256x2048.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x2048.size a ≤ S2048x2048.size a
  hwx3_4 : ∀ i : grid3.Coords, EltTy.bits .bf16 = 32 ∨ (Rect.block (s := S2048x2048) S256x2048.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x256x64.size a ≤ S16x2048x64.size a
  hwx3_5 : ∀ i : grid3.Coords, EltTy.bits .f32 = 32 ∨ (Rect.block (s := S16x2048x64) S1x256x64.size (cc3_transform_5 i) (hinb3_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def scatter_S2048x2048_S2_S2047x2047_01_n_01_0 : ScatterDims S2048x2048 S2 S2047x2047 where
  updateWindowDims := [0, 1]
  insertedWindowDims := []
  scatterDimsToOperandDims := [0, 1]
  indexVectorDim := 0
  wf := scatter_S2048x2048_S2_S2047x2047_01_n_01_0_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v7) S1x256x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S1x256x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v19) S256x2048.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v20) S1x256x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S2048x1024 : Shape := ⟨2, ![2048, 1024]⟩
abbrev S16x2048x2048 : Shape := ⟨3, ![16, 2048, 2048]⟩
abbrev S2047x2047 : Shape := ⟨2, ![2047, 2047]⟩
abbrev S1024x1024 : Shape := ⟨2, ![1024, 1024]⟩
abbrev S1024 : Shape := ⟨1, ![1024]⟩
abbrev S1x1024 : Shape := ⟨2, ![1, 1024]⟩
abbrev S2048x16x64 : Shape := ⟨3, ![2048, 16, 64]⟩
abbrev S16x2048x64 : Shape := ⟨3, ![16, 2048, 64]⟩
abbrev S_ : Shape := ⟨0, ![]⟩
abbrev S2048x2048 : Shape := ⟨2, ![2048, 2048]⟩
abbrev S1 : Shape := ⟨1, ![1]⟩
abbrev S2 : Shape := ⟨1, ![2]⟩
abbrev S1x2048x2048 : Shape := ⟨3, ![1, 2048, 2048]⟩
abbrev S16x2048 : Shape := ⟨2, ![16, 2048]⟩
abbrev S16x2048x1 : Shape := ⟨3, ![16, 2048, 1]⟩

abbrev nBuf : Space → Nat
  | .hbm => 67
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S16x2048x2048, .f32⟩
  | .hbm, ⟨4, _⟩ => ⟨S2047x2047, .i32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2048x1024, .f32⟩
  | .hbm, ⟨12, _⟩ => ⟨S1x1024, .f32⟩
  | .hbm, ⟨13, _⟩ => ⟨S2048x1024, .f32⟩
  | .hbm, ⟨14, _⟩ => ⟨S2048x1024, .f32⟩
  | .hbm, ⟨15, _⟩ => ⟨S2048x16x64, .f32⟩
  | .hbm, ⟨16, _⟩ => ⟨S16x2048x64, .f32⟩
  | .hbm, ⟨17, _⟩ => ⟨S_, .f32⟩
  | .hbm, ⟨18, _⟩ => ⟨S16x2048x64, .f32⟩
  | .hbm, ⟨19, _⟩ => ⟨S16x2048x64, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x16x64, .f32⟩
  | .hbm, ⟨25, _⟩ => ⟨S16x2048x64, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x16x64, .f32⟩
  | .hbm, ⟨31, _⟩ => ⟨S16x2048x64, .f32⟩
  | .hbm, ⟨32, _⟩ => ⟨S16x2048x2048, .f32⟩
  | .hbm, ⟨33, _⟩ => ⟨S16x2048x2048, .f32⟩
  | .hbm, ⟨34, _⟩ => ⟨S_, .i1⟩
  | .hbm, ⟨35, _⟩ => ⟨S2048x2048, .i1⟩
  | .hbm, ⟨36, _⟩ => ⟨S_, .i32⟩
  | .hbm, ⟨37, _⟩ => ⟨S2047x2047, .i32⟩
  | .hbm, ⟨38, _⟩ => ⟨S2047x2047, .i1⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S2048x2048, .i1⟩
  | .hbm, ⟨45, _⟩ => ⟨S1x2048x2048, .i1⟩
  | .hbm, ⟨46, _⟩ => ⟨S_, .f32⟩
  | .hbm, ⟨47, _⟩ => ⟨S16x2048x2048, .i1⟩
  | .hbm, ⟨48, _⟩ => ⟨S16x2048x2048, .f32⟩
  | .hbm, ⟨49, _⟩ => ⟨S16x2048x2048, .f32⟩
  | .hbm, ⟨50, _⟩ => ⟨S_, .f32⟩
  | .hbm, ⟨51, _⟩ => ⟨S16x2048, .f32⟩
  | .hbm, ⟨52, _⟩ => ⟨S_, .f32⟩
  | .hbm, ⟨53, _⟩ => ⟨S16x2048, .f32⟩
  | .hbm, ⟨54, _⟩ => ⟨S16x2048, .f32⟩
  | .hbm, ⟨55, _⟩ => ⟨S16x2048x1, .f32⟩
  | .hbm, ⟨56, _⟩ => ⟨S16x2048x2048, .f32⟩
  | .hbm, ⟨57, _⟩ => ⟨S16x2048x2048, .f32⟩
  | .hbm, ⟨58, _⟩ => ⟨S16x2048x2048, .f32⟩
  | .hbm, ⟨59, _⟩ => ⟨S_, .f32⟩
  | .hbm, ⟨60, _⟩ => ⟨S16x2048, .f32⟩
  | .hbm, ⟨61, _⟩ => ⟨S16x2048x1, .f32⟩
  | .hbm, ⟨62, _⟩ => ⟨S16x2048x2048, .f32⟩
  | .hbm, ⟨63, _⟩ => ⟨S16x2048x2048, .f32⟩
  | .hbm, ⟨64, _⟩ => ⟨S16x2048x64, .f32⟩
  | .hbm, ⟨65, _⟩ => ⟨S2048x16x64, .f32⟩
  | .hbm, ⟨66, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_v22 : Ref sig .tc := ⟨.hbm, 35, rfl⟩
abbrev main_c_0 : Ref sig .tc := ⟨.hbm, 36, rfl⟩
abbrev main_v23 : Ref sig .tc := ⟨.hbm, 37, rfl⟩
abbrev main_v24 : Ref sig .tc := ⟨.hbm, 38, rfl⟩
abbrev main_c_1 : Ref sig .tc := ⟨.hbm, 39, rfl⟩
abbrev main_v25 : Ref sig .tc := ⟨.hbm, 40, rfl⟩
abbrev main_c_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  shapeCasts_S2048x1024_S2048x16x64 : S2048x1024.ShapeCasts S2048x16x64
  transposes_S2048x16x64_S16x2048x64_1_0_2 : S2048x16x64.Transposes [1, 0, 2] S16x2048x64
  bcast_S_S16x2048x64 : S_.BroadcastsInDim S16x2048x64 (![] : Fin 0 → Fin S16x2048x64.rank)
  bcast_S_S2048x2048 : S_.BroadcastsInDim S2048x2048 (![] : Fin 0 → Fin S2048x2048.rank)
  bcast_S_S2047x2047 : S_.BroadcastsInDim S2047x2047 (![] : Fin 0 → Fin S2047x2047.rank)
  bcast_S_S1 : S_.BroadcastsInDim S1 (![] : Fin 0 → Fin S1.rank)
  concatenates_S1_S1_S2_d0 : Shape.Concatenates [S1, S1] S2 0
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  transposes_S16x2048x64_S2048x16x64_1_0_2 : S16x2048x64.Transposes [1, 0, 2] S2048x16x64
  shapeCasts_S2048x16x64_S2048x1024 : S2048x16x64.ShapeCasts S2048x1024
  dot_S2048x1024_S1024x1024_S2048x1024_1_0_0_1_n_n_wf : DotDims.WF S2048x1024 S1024x1024 S2048x1024 [1] [0] [0] [1] [] []
  dot_S16x2048x64_S16x2048x64_S16x2048x2048_2_2_1_1_0_0_wf : DotDims.WF S16x2048x64 S16x2048x64 S16x2048x2048 [2] [2] [1] [1] [0] [0]
  scatter_S2048x2048_S2_S2047x2047_01_n_01_0_wf : ScatterDims.WF S2048x2048 S2 S2047x2047 [0, 1] [] [0, 1] 0
  dot_S16x2048x2048_S16x2048x64_S16x2048x64_2_1_1_2_0_0_wf : DotDims.WF S16x2048x2048 S16x2048x64 S16x2048x64 [2] [1] [1] [2] [0] [0]

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def scatter_S2048x2048_S2_S2047x2047_01_n_01_0 : ScatterDims S2048x2048 S2 S2047x2047 where
  updateWindowDims := [0, 1]
  insertedWindowDims := []
  scatterDimsToOperandDims := [0, 1]
  indexVectorDim := 0
  wf := scatter_S2048x2048_S2_S2047x2047_01_n_01_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.WholeRun.lean ====
/-
  The whole program's run with its RESULT named: from any memory with zero counters every weakly fair execution of
  @main ends, nothing faulting, with the result buffer at what the last stretch of host operations leaves of the last
  region's output (the boundary contents `Gen.W7`), and the argument arrays as launched. The program is four kernel
  regions among three stretches of host operations; the contents at each boundary are the fold `Gen.W0 … Gen.W7`.
-/
import proofs.«110870_j26259430048704_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The segments' run read at the result buffer as well as at the arguments: the last thread state holds every unscoped
    buffer at the last boundary's contents, and the result buffer is one of them. -/
theorem run : θ_run defs (onTc (τ := τ) (main (F := F))) ⟨m, fun _ => 0, ρ⟩ (fun r => ∀ c : Dev nD,
      r.2.mem ((c.tc : Thread nD τ).loc main_v22) = W7 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v22 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.WholeRun

end
-- ==== Proof.Boundaries.lean ====
/-
  What the buffers hold at the boundaries between the program's segments (three stretches of host operations around four
  kernel regions), read off the fold of the boundary contents: a host operation's result is its function of its operands'
  contents, a region changes its own output array only, and nothing writes an argument.

  * before each projection: its activations and weights are the arguments, its bias row the bias vector cast to one row;
  * after the three projections: each projection's output array is what that region's grid leaves of it, and the score
    bias and the integer mask argument are still the arguments;
  * before the attention region: queries, keys and values are the projections split into 16 heads of 64 lanes and moved
    head-major (keys and values narrowed to bf16, the identity on extended reals), and the keep matrix is the all-ones
    matrix with the integer mask, converted to floats, written over it from entry (1, 1);
  * at the end: the result is the attention region's output moved back row-major and joined to 1024 columns.
-/
import proofs.«110870_j26259430048704_2_alg».proof.Proof.Gen.KernelIdeal.Frame
import Idealize.ShloMosaic.Lib.StableHlo.Run

set_option maxRecDepth 16384

noncomputable section

namespace Cert.KernelIdeal.Boundaries

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## Before the first projection -/

theorem first_x : V1 m ρ c main_arg0 = m ((c : Thread nD τ).loc main_arg0) := by
  show StableHlo.after hostOps0 (W0 m ρ c) (Proc.devRef .tc main_arg0) = _
  after_results
  all_goals rfl
theorem first_w : V1 m ρ c main_arg5 = m ((c : Thread nD τ).loc main_arg5) := by
  show StableHlo.after hostOps0 (W0 m ρ c) (Proc.devRef .tc main_arg5) = _
  after_results
  all_goals rfl
theorem first_b : V1 m ρ c main_v0 = shapeCast S1x1024 (m ((c : Thread nD τ).loc main_arg6)) shapeCasts_S1024_S1x1024 := by
  show StableHlo.after hostOps0 (W0 m ρ c) (Proc.devRef .tc main_v0) = _
  after_results
  all_goals rfl

/-! ## Before the second projection: the first region wrote its own output only -/

theorem second_x : V2 m ρ c main_arg1 = m ((c : Thread nD τ).loc main_arg1) := by
  refine (W2_of_ne m ρ c main_arg1 (by decide)).trans ?_
  show StableHlo.after hostOps0 (W0 m ρ c) (Proc.devRef .tc main_arg1) = _
  after_results
  all_goals rfl
theorem second_w : V2 m ρ c main_arg7 = m ((c : Thread nD τ).loc main_arg7) := by
  refine (W2_of_ne m ρ c main_arg7 (by decide)).trans ?_
  show StableHlo.after hostOps0 (W0 m ρ c) (Proc.devRef .tc main_arg7) = _
  after_results
  all_goals rfl
theorem second_b : V2 m ρ c main_v1 = shapeCast S1x1024 (m ((c : Thread nD τ).loc main_arg8)) shapeCasts_S1024_S1x1024 := by
  refine (W2_of_ne m ρ c main_v1 (by decide)).trans ?_
  show StableHlo.after hostOps0 (W0 m ρ c) (Proc.devRef .tc main_v1) = _
  after_results
  all_goals rfl

/-! ## Before the third projection -/

theorem third_x : V3 m ρ c main_arg2 = m ((c : Thread nD τ).loc main_arg2) := by
  refine (W3_of_ne m ρ c main_arg2 (by decide)).trans ((W2_of_ne m ρ c main_arg2 (by decide)).trans ?_)
  show StableHlo.after hostOps0 (W0 m ρ c) (Proc.devRef .tc main_arg2) = _
  after_results
  all_goals rfl
theorem third_w : V3 m ρ c main_arg9 = m ((c : Thread nD τ).loc main_arg9) := by
  refine (W3_of_ne m ρ c main_arg9 (by decide)).trans ((W2_of_ne m ρ c main_arg9 (by decide)).trans ?_)
  show StableHlo.after hostOps0 (W0 m ρ c) (Proc.devRef .tc main_arg9) = _
  after_results
  all_goals rfl
theorem third_b : V3 m ρ c main_v2 = shapeCast S1x1024 (m ((c : Thread nD τ).loc main_arg10)) shapeCasts_S1024_S1x1024 := by
  refine (W3_of_ne m ρ c main_v2 (by decide)).trans ((W2_of_ne m ρ c main_v2 (by decide)).trans ?_)
  show StableHlo.after hostOps0 (W0 m ρ c) (Proc.devRef .tc main_v2) = _
  after_results
  all_goals rfl

/-! ## After the three projections -/

theorem proj_q : W4 m ρ c (Proc.devRef .tc main_v3) = (dat0 (V1 m ρ) c).arrAt 3 cfg0.N :=
  (W4_of_ne m ρ c main_v3 (by decide)).trans ((W3_of_ne m ρ c main_v3 (by decide)).trans (W2_arr m ρ c 3))
theorem proj_k : W4 m ρ c (Proc.devRef .tc main_v4) = (dat1 (V2 m ρ) c).arrAt 3 cfg1.N :=
  (W4_of_ne m ρ c main_v4 (by decide)).trans (W3_arr m ρ c 3)
theorem proj_v : W4 m ρ c (Proc.devRef .tc main_v5) = (dat2 (V3 m ρ) c).arrAt 3 cfg2.N :=
  W4_arr m ρ c 3
theorem kept_bias : W4 m ρ c (Proc.devRef .tc main_arg3) = m ((c : Thread nD τ).loc main_arg3) := by
  refine (W4_of_ne m ρ c main_arg3 (by decide)).trans ((W3_of_ne m ρ c main_arg3 (by decide)).trans ((W2_of_ne m ρ c main_arg3 (by decide)).trans ?_))
  show StableHlo.after hostOps0 (W0 m ρ c) (Proc.devRef .tc main_arg3) = _
  after_results
  all_goals rfl
theorem kept_mask : W4 m ρ c (Proc.devRef .tc main_arg4) = m ((c : Thread nD τ).loc main_arg4) := by
  refine (W4_of_ne m ρ c main_arg4 (by decide)).trans ((W3_of_ne m ρ c main_arg4 (by decide)).trans ((W2_of_ne m ρ c main_arg4 (by decide)).trans ?_))
  show StableHlo.after hostOps0 (W0 m ρ c) (Proc.devRef .tc main_arg4) = _
  after_results
  all_goals rfl

/-! ## Before the attention region -/

theorem attn_q : V5 m ρ c main_v7 = transpose S16x2048x64 [1, 0, 2]
    (shapeCast S2048x16x64 (W4 m ρ c (Proc.devRef .tc main_v3)) shapeCasts_S2048x1024_S2048x16x64) transposes_S2048x16x64_S16x2048x64_1_0_2 := by
  show StableHlo.after hostOps3 (W4 m ρ c) (Proc.devRef .tc main_v7) = _
  after_results
  all_goals rfl
theorem attn_k : V5 m ρ c main_v10 = truncf .bf16 (transpose S16x2048x64 [1, 0, 2]
    (shapeCast S2048x16x64 (W4 m ρ c (Proc.devRef .tc main_v4)) shapeCasts_S2048x1024_S2048x16x64) transposes_S2048x16x64_S16x2048x64_1_0_2) bitsLt_bf16_f32 := by
  show StableHlo.after hostOps3 (W4 m ρ c) (Proc.devRef .tc main_v10) = _
  after_results
  all_goals rfl
theorem attn_v : V5 m ρ c main_v13 = truncf .bf16 (transpose S16x2048x64 [1, 0, 2]
    (shapeCast S2048x16x64 (W4 m ρ c (Proc.devRef .tc main_v5)) shapeCasts_S2048x1024_S2048x16x64) transposes_S2048x16x64_S16x2048x64_1_0_2) bitsLt_bf16_f32 := by
  show StableHlo.after hostOps3 (W4 m ρ c) (Proc.devRef .tc main_v13) = _
  after_results
  all_goals rfl
theorem attn_bias : V5 m ρ c main_arg3 = W4 m ρ c (Proc.devRef .tc main_arg3) := by
  show StableHlo.after hostOps3 (W4 m ρ c) (Proc.devRef .tc main_arg3) = _
  after_results
  all_goals rfl
theorem attn_keep : V5 m ρ c main_v19 = Host.scatter scatter_S2048x2048_S2_S2047x2047_01_n_01_0 (fun _ b => b)
    (broadcastInDim S2048x2048 ![] bcast_S_S2048x2048 (constant S_ .bf16 0x3F80#16))
    (concatenate S2 0 [⟨S1, broadcastInDim S1 ![] bcast_S_S1 (constantI S_ 32 1#32)⟩, ⟨S1, broadcastInDim S1 ![] bcast_S_S1 (constantI S_ 32 1#32)⟩] concatenates_S1_S1_S2_d0)
    (sitofp .bf16 (W4 m ρ c (Proc.devRef .tc main_arg4))) := by
  show StableHlo.after hostOps3 (W4 m ρ c) (Proc.devRef .tc main_v19) = _
  after_results
  all_goals rfl

/-! ## At the end -/

theorem attn_out : W6 m ρ c (Proc.devRef .tc main_v20) = (dat3 (V5 m ρ) c).arrAt 5 cfg3.N :=
  W6_arr m ρ c 5
theorem last : W7 m ρ c (Proc.devRef .tc main_v22) = shapeCast S2048x1024 (transpose S2048x16x64 [1, 0, 2]
    (W6 m ρ c (Proc.devRef .tc main_v20)) transposes_S16x2048x64_S2048x16x64_1_0_2) shapeCasts_S2048x16x64_S2048x1024 := by
  show StableHlo.after hostOps4 (W6 m ρ c) (Proc.devRef .tc main_v22) = _
  after_results
  all_goals rfl

end Cert.KernelIdeal.Boundaries

end
-- ==== Proof.ProjEntry.lean ====
/-
  One projection: y = x·w + b, with x of 2048 rows and 1024 columns, w a 1024 × 1024 matrix and the bias b kept as a
  matrix of one row. The kernel computes it 512 rows at a time: from a block of 512 rows of x, the whole of w and the
  bias row it forms the block's product with w into a zero accumulator, lays the bias row under every one of the 512
  rows, and adds. On the extended reals the changes of float format are the identity and the product into zero is the
  plain sum over the contracted column, so the block's entry (r, j) is Σ_k x(r, k) · w(k, j) + b(0, j): the block is a
  stretch of 512 rows of the whole array `linRow x w b`.
-/
import proofs.«110870_j26259430048704_2_alg».proof.Proof.Gen.KernelIdeal.Skeleton
import Idealize.ShloMosaic.Lib.ValueIdx
import Idealize.ShloMosaic.Lib.ValueLayout
import Idealize.ShloMosaic.PureOps.Ideal.Laws
import Idealize.ShloMosaic.Lib.Pipeline.Value

noncomputable section

namespace Cert.KernelIdeal.ProjValue
open Cert.KernelIdeal Cert.KernelIdeal.Gen Idealize.ShloMosaic Idealize.ShloMosaic.ValueIdx

/-- x·w + b over whole arrays, the bias a one-row matrix. -/
def linRow (x : S2048x1024.Idx → EReal) (w : S1024x1024.Idx → EReal) (b2 : S1x1024.Idx → EReal) : S2048x1024.Idx → EReal :=
  fun i => (∑ k : Fin 1024, x (ix2 ⟨(i 0).val, idx2_lt0 i⟩ k) * w (ix2 k ⟨(i 1).val, idx2_lt1 i⟩)) + b2 (ix2 0 ⟨(i 1).val, idx2_lt1 i⟩)

/-- The product of a 512 × 1024 block with a 1024 × 1024 matrix, accumulated into zero, at the entry (r, j): the sum
    over the contracted coordinate k of A(r, k) · B(k, j). The contraction's index set has one axis of extent 1024; the
    sum is re-indexed through its one coordinate, and the two operand indices at (r, j), k are (r, k) and (k, j). -/
theorem matmul_entry (A : FVec Ideal S512x1024 .bf16) (B : FVec Ideal S1024x1024 .bf16) (r : Fin 512) (j : Fin 1024) :
    matmul dot_S512x1024_S1024x1024_S512x1024_1_0_0_1_n_n none A B (constant (F := Ideal) S512x1024 .f32 0x00000000#32) (ix2 r j)
      = ∑ k : Fin 1024, A (ix2 r k) * B (ix2 k j) := by
  show FloatOps.matmul _ none A B (constant (F := Ideal) S512x1024 .f32 0x00000000#32) (ix2 r j) = _
  rw [Ideal.matmul_constant_zero_apply, ← Equiv.sum_comp (contrEquiv1 dot_S512x1024_S1024x1024_S512x1024_1_0_0_1_n_n 1024 rfl rfl).symm]
  refine Finset.sum_congr rfl fun c _ => ?_
  have c2 := contrEquiv1_symm_val dot_S512x1024_S1024x1024_S512x1024_1_0_0_1_n_n 1024 rfl rfl c
  have l2 : dot_S512x1024_S1024x1024_S512x1024_1_0_0_1_n_n.lhsIdx (ix2 r j) ((contrEquiv1 _ 1024 rfl rfl).symm c) = ix2 r c := by
    funext ax; apply Fin.ext
    match ax with
    | ⟨0, _⟩ => rfl
    | ⟨1, _⟩ => exact (DotDims.lhsIdx_val_of_single _ rfl _ _).trans c2
  have r2 : dot_S512x1024_S1024x1024_S512x1024_1_0_0_1_n_n.rhsIdx (ix2 r j) ((contrEquiv1 _ 1024 rfl rfl).symm c) = ix2 c j := by
    funext ax; apply Fin.ext
    match ax with
    | ⟨0, _⟩ => exact (DotDims.rhsIdx_val_of_single _ rfl _ _).trans c2
    | ⟨1, _⟩ => rfl
  rw [l2, r2]

/-- The first projection's block at the entry (r, j): the row of the activations' block against the weights' column,
    plus the bias row's entry j. -/
theorem pay0_entry (x0 : Vec Ideal S512x1024 .f32) (x1 : Vec Ideal S1024x1024 .f32) (x2 : Vec Ideal S1x1024 .f32) (r : Fin 512) (j : Fin 1024) :
    k0_pay1 x0 x1 x2 (ix2 r j) = (∑ k : Fin 1024, x0 (ix2 r k) * x1 (ix2 k j)) + x2 (ix2 0 j) := by
  unfold k0_pay1
  rw [addf_apply, matmul_entry, shapeCast_self, broadcastTo_1b_ab_apply]
  rfl

/-- The second projection's block: the same arithmetic. -/
theorem pay1_entry (x0 : Vec Ideal S512x1024 .f32) (x1 : Vec Ideal S1024x1024 .f32) (x2 : Vec Ideal S1x1024 .f32) (r : Fin 512) (j : Fin 1024) :
    k1_pay1 x0 x1 x2 (ix2 r j) = (∑ k : Fin 1024, x0 (ix2 r k) * x1 (ix2 k j)) + x2 (ix2 0 j) := by
  unfold k1_pay1
  rw [addf_apply, matmul_entry, shapeCast_self, broadcastTo_1b_ab_apply]
  rfl

/-- The third projection's block: the same arithmetic. -/
theorem pay2_entry (x0 : Vec Ideal S512x1024 .f32) (x1 : Vec Ideal S1024x1024 .f32) (x2 : Vec Ideal S1x1024 .f32) (r : Fin 512) (j : Fin 1024) :
    k2_pay1 x0 x1 x2 (ix2 r j) = (∑ k : Fin 1024, x0 (ix2 r k) * x1 (ix2 k j)) + x2 (ix2 0 j) := by
  unfold k2_pay1
  rw [addf_apply, matmul_entry, shapeCast_self, broadcastTo_1b_ab_apply]
  rfl

/-- A block's arithmetic is `linRow` on the block's rows: if row r of the activations' block is the row of x that the
    array index i lies in (`h0`), i lies in column j (`hi1`), and the other two blocks are the whole of w and of the bias
    row, then the sum at (r, j) is `linRow x w b` at i. -/
theorem rows_entry (X : S2048x1024.Idx → EReal) (W : S1024x1024.Idx → EReal) (B : S1x1024.Idx → EReal)
    (x0 : S512x1024.Idx → EReal) (x1 : S1024x1024.Idx → EReal) (x2 : S1x1024.Idx → EReal)
    (r : Fin 512) (j : Fin 1024) (i : S2048x1024.Idx) (hi1 : (i 1).val = j.val)
    (h0 : ∀ k : Fin 1024, x0 (ix2 r k) = X (ix2 ⟨(i 0).val, idx2_lt0 i⟩ k)) (h1 : x1 = W) (h2 : x2 = B) :
    (∑ k : Fin 1024, x0 (ix2 r k) * x1 (ix2 k j)) + x2 (ix2 0 j) = linRow X W B i := by
  subst h1 h2
  have hj : (⟨(i 1).val, idx2_lt1 i⟩ : Fin 1024) = j := Fin.ext hi1
  unfold linRow
  rw [hj]
  exact congrArg (· + x2 (ix2 0 j)) (Finset.sum_congr rfl fun k _ => by rw [h0 k])

end Cert.KernelIdeal.ProjValue
end
-- ==== Proof.ProjRows0.lean ====
/-
  Projection one, from blocks of rows to the whole array. The grid has four points; point t takes rows 512·t … 512·t + 511 of
  the activations, the whole weight matrix and the whole bias row, and writes back rows 512·t … 512·t + 511 of the result.
  So what point t writes back is that stretch of rows of `linRow x w b`; every row n is in the stretch of the point
  n / 512; hence the result array ends as `linRow x w b`.
-/
import proofs.«110870_j26259430048704_2_alg».proof.Proof.Gen.KernelIdeal.Frame
import proofs.«110870_j26259430048704_2_alg».proof.Proof.ProjEntry

set_option maxRecDepth 16384
noncomputable section

namespace Cert.KernelIdeal.ProjValue
open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Zero offsets on both axes, however spelt. -/
theorem zeros0 : (![0, 0] : Fin 2 → Nat) = fun _ => 0 := funext fun a => by fin_cases a <;> rfl

/-- The block indices at point t, read off the program's index maps, decided over the four points: the activations' and the
    result's blocks are block t of rows and block 0 of columns; the weights' and the bias row's are block (0, 0). -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK is the stretch of rows 512·t … 512·t + 511 of `linRow` of the arrays the region finds. -/
theorem rowsWritten0 (c : Dev nD) (t : Fin cfg0.N) :
    (dat0 (F := Ideal) V c).flushed 3 t
      = ((cfg0.win 3).blk t).view.read (Elt Ideal) (linRow (V c main_arg0) (V c main_arg5) (V c main_v0)) := by
  show (cfg0.win 3).cut (grid0.coords t) ((dat0 V c).after 3 t) = _
  rw [after0_3]
  unfold out0_3
  rw [View.canon_unit_zero zeros0]
  simp only [View.ld_unit_zero (S := S512x1024) zeros0, View.ld_unit_zero (S := S1024x1024) zeros0, View.ld_unit_zero (S := S1x1024) zeros0]
  obtain ⟨a0, a1, b0, b1, c0, c1, d0, d1⟩ := blockIdx0 t
  funext y
  obtain ⟨r, j, rfl⟩ : ∃ (r : Fin 512) (j : Fin 1024), y = ix2 r j := ⟨y 0, y 1, eq_ix2 y⟩
  show k0_pay1 (iblk0 V c 0 t) (iblk0 V c 1 t) (iblk0 V c 2 t) (ix2 r j)
    = linRow (V c main_arg0) (V c main_arg5) (V c main_v0) (((cfg0.win 3).blk t).view.emb (ix2 r j))
  refine (pay0_entry (iblk0 V c 0 t) (iblk0 V c 1 t) (iblk0 V c 2 t) r j).trans ?_
  refine rows_entry (V c main_arg0) (V c main_arg5) (V c main_v0) (iblk0 V c 0 t) (iblk0 V c 1 t) (iblk0 V c 2 t) r j
    (((cfg0.win 3).blk t).view.emb (ix2 r j)) ?_ ?_ ?_ ?_
  · -- the entry's column in the array is its column in the block
    show win0_3.index t (1 : Fin 2) * 1024 + 1 * j.val = j.val
    rw [d1]; omega
  · -- row r of the activations' block is the array's row 512·t + r, where the result's entry lies
    intro k
    unfold iblk0
    rw [View.read_apply]
    show V c main_arg0 _ = V c main_arg0 _
    congr 1
    funext a
    apply Fin.ext
    match a with
    | ⟨0, _⟩ => show win0_0.index t (0 : Fin 2) * 512 + 1 * r.val = win0_3.index t (0 : Fin 2) * 512 + 1 * r.val; rw [a0, d0]
    | ⟨1, _⟩ => show win0_0.index t (1 : Fin 2) * 1024 + 1 * k.val = k.val; rw [a1]; omega
  · -- the weights' block is the whole matrix
    funext z
    unfold iblk0
    rw [View.read_apply]
    show V c main_arg5 _ = V c main_arg5 z
    congr 1
    funext a
    apply Fin.ext
    match a with
    | ⟨0, _⟩ => show win0_1.index t (0 : Fin 2) * 1024 + 1 * (z 0).val = (z 0).val; rw [b0]; omega
    | ⟨1, _⟩ => show win0_1.index t (1 : Fin 2) * 1024 + 1 * (z 1).val = (z 1).val; rw [b1]; omega
  · -- the bias block is the whole row
    funext z
    unfold iblk0
    rw [View.read_apply]
    show V c main_v0 _ = V c main_v0 z
    congr 1
    funext a
    apply Fin.ext
    match a with
    | ⟨0, _⟩ => show win0_2.index t (0 : Fin 2) * 1 + 1 * (z 0).val = (z 0).val; rw [c0]; omega
    | ⟨1, _⟩ => show win0_2.index t (1 : Fin 2) * 1024 + 1 * (z 1).val = (z 1).val; rw [c1]; omega

/-- An index of the result array is in point t's block iff each coordinate is in the block's range on its axis. -/
theorem mem_rows0 (t : Fin cfg0.N) (i : S2048x1024.Idx) :
    i ∈ ((cfg0.win 3).blk t).view.set
      ↔ ∀ a : Fin 2, win0_3.index t a * S512x1024.size a ≤ (i a).val ∧ (i a).val < win0_3.index t a * S512x1024.size a + S512x1024.size a := by
  show i ∈ ((View.whole main_v3).slice (win0_3.rect t)).set ↔ _
  rw [View.set_slice_whole, Rect.mem_set_unit]
  exact Iff.rfl

/-- THE RESULT ARRAY after the region: every row n lies in the block of point n / 512, so the array is `linRow` of the
    arrays the region finds. -/
theorem rows0 (c : Dev nD) :
    (dat0 (F := Ideal) V c).arrAt 3 cfg0.N = linRow (V c main_arg0) (V c main_arg5) (V c main_v0) :=
  (dat0 V c).arrAt_eq_of_cover 3 (linRow (V c main_arg0) (V c main_arg5) (V c main_v0)) (fun t _ => rowsWritten0 V c t) fun i => by
    have hi0 : (i 0 : Nat) < 2048 := (i 0).isLt
    have hi1 : (i 1 : Nat) < 1024 := (i 1).isLt
    obtain ⟨t, ht⟩ : ∃ t : Fin cfg0.N, t.val = (i 0 : Nat) / 512 :=
      ⟨⟨(i 0 : Nat) / 512, by rw [show cfg0.N = 4 from N_0]; omega⟩, rfl⟩
    obtain ⟨-, -, -, -, -, -, d0, d1⟩ := blockIdx0 t
    refine ⟨t, flush0_3 t, ?_⟩
    rw [mem_rows0]
    intro a
    match a with
    | ⟨0, _⟩ =>
      show win0_3.index t (0 : Fin 2) * 512 ≤ (i 0 : Nat) ∧ (i 0 : Nat) < win0_3.index t (0 : Fin 2) * 512 + 512
      rw [d0, ht]; omega
    | ⟨1, _⟩ =>
      show win0_3.index t (1 : Fin 2) * 1024 ≤ (i 1 : Nat) ∧ (i 1 : Nat) < win0_3.index t (1 : Fin 2) * 1024 + 1024
      rw [d1]; omega

end Cert.KernelIdeal.ProjValue
end
-- ==== Proof.ProjRows1.lean ====
/-
  Projection two, from blocks of rows to the whole array. The grid has four points; point t takes rows 512·t … 512·t + 511 of
  the activations, the whole weight matrix and the whole bias row, and writes back rows 512·t … 512·t + 511 of the result.
  So what point t writes back is that stretch of rows of `linRow x w b`; every row n is in the stretch of the point
  n / 512; hence the result array ends as `linRow x w b`.
-/
import proofs.«110870_j26259430048704_2_alg».proof.Proof.Gen.KernelIdeal.Frame
import proofs.«110870_j26259430048704_2_alg».proof.Proof.ProjEntry

set_option maxRecDepth 16384
noncomputable section

namespace Cert.KernelIdeal.ProjValue
open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Zero offsets on both axes, however spelt. -/
theorem zeros1 : (![0, 0] : Fin 2 → Nat) = fun _ => 0 := funext fun a => by fin_cases a <;> rfl

/-- The block indices at point t, read off the program's index maps, decided over the four points: the activations' and the
    result's blocks are block t of rows and block 0 of columns; the weights' and the bias row's are block (0, 0). -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT t WRITES BACK is the stretch of rows 512·t … 512·t + 511 of `linRow` of the arrays the region finds. -/
theorem rowsWritten1 (c : Dev nD) (t : Fin cfg1.N) :
    (dat1 (F := Ideal) V c).flushed 3 t
      = ((cfg1.win 3).blk t).view.read (Elt Ideal) (linRow (V c main_arg1) (V c main_arg7) (V c main_v1)) := by
  show (cfg1.win 3).cut (grid1.coords t) ((dat1 V c).after 3 t) = _
  rw [after1_3]
  unfold out1_3
  rw [View.canon_unit_zero zeros1]
  simp only [View.ld_unit_zero (S := S512x1024) zeros1, View.ld_unit_zero (S := S1024x1024) zeros1, View.ld_unit_zero (S := S1x1024) zeros1]
  obtain ⟨a0, a1, b0, b1, c0, c1, d0, d1⟩ := blockIdx1 t
  funext y
  obtain ⟨r, j, rfl⟩ : ∃ (r : Fin 512) (j : Fin 1024), y = ix2 r j := ⟨y 0, y 1, eq_ix2 y⟩
  show k1_pay1 (iblk1 V c 0 t) (iblk1 V c 1 t) (iblk1 V c 2 t) (ix2 r j)
    = linRow (V c main_arg1) (V c main_arg7) (V c main_v1) (((cfg1.win 3).blk t).view.emb (ix2 r j))
  refine (pay1_entry (iblk1 V c 0 t) (iblk1 V c 1 t) (iblk1 V c 2 t) r j).trans ?_
  refine rows_entry (V c main_arg1) (V c main_arg7) (V c main_v1) (iblk1 V c 0 t) (iblk1 V c 1 t) (iblk1 V c 2 t) r j
    (((cfg1.win 3).blk t).view.emb (ix2 r j)) ?_ ?_ ?_ ?_
  · -- the entry's column in the array is its column in the block
    show win1_3.index t (1 : Fin 2) * 1024 + 1 * j.val = j.val
    rw [d1]; omega
  · -- row r of the activations' block is the array's row 512·t + r, where the result's entry lies
    intro k
    unfold iblk1
    rw [View.read_apply]
    show V c main_arg1 _ = V c main_arg1 _
    congr 1
    funext a
    apply Fin.ext
    match a with
    | ⟨0, _⟩ => show win1_0.index t (0 : Fin 2) * 512 + 1 * r.val = win1_3.index t (0 : Fin 2) * 512 + 1 * r.val; rw [a0, d0]
    | ⟨1, _⟩ => show win1_0.index t (1 : Fin 2) * 1024 + 1 * k.val = k.val; rw [a1]; omega
  · -- the weights' block is the whole matrix
    funext z
    unfold iblk1
    rw [View.read_apply]
    show V c main_arg7 _ = V c main_arg7 z
    congr 1
    funext a
    apply Fin.ext
    match a with
    | ⟨0, _⟩ => show win1_1.index t (0 : Fin 2) * 1024 + 1 * (z 0).val = (z 0).val; rw [b0]; omega
    | ⟨1, _⟩ => show win1_1.index t (1 : Fin 2) * 1024 + 1 * (z 1).val = (z 1).val; rw [b1]; omega
  · -- the bias block is the whole row
    funext z
    unfold iblk1
    rw [View.read_apply]
    show V c main_v1 _ = V c main_v1 z
    congr 1
    funext a
    apply Fin.ext
    match a with
    | ⟨0, _⟩ => show win1_2.index t (0 : Fin 2) * 1 + 1 * (z 0).val = (z 0).val; rw [c0]; omega
    | ⟨1, _⟩ => show win1_2.index t (1 : Fin 2) * 1024 + 1 * (z 1).val = (z 1).val; rw [c1]; omega

/-- An index of the result array is in point t's block iff each coordinate is in the block's range on its axis. -/
theorem mem_rows1 (t : Fin cfg1.N) (i : S2048x1024.Idx) :
    i ∈ ((cfg1.win 3).blk t).view.set
      ↔ ∀ a : Fin 2, win1_3.index t a * S512x1024.size a ≤ (i a).val ∧ (i a).val < win1_3.index t a * S512x1024.size a + S512x1024.size a := by
  show i ∈ ((View.whole main_v4).slice (win1_3.rect t)).set ↔ _
  rw [View.set_slice_whole, Rect.mem_set_unit]
  exact Iff.rfl

/-- THE RESULT ARRAY after the region: every row n lies in the block of point n / 512, so the array is `linRow` of the
    arrays the region finds. -/
theorem rows1 (c : Dev nD) :
    (dat1 (F := Ideal) V c).arrAt 3 cfg1.N = linRow (V c main_arg1) (V c main_arg7) (V c main_v1) :=
  (dat1 V c).arrAt_eq_of_cover 3 (linRow (V c main_arg1) (V c main_arg7) (V c main_v1)) (fun t _ => rowsWritten1 V c t) fun i => by
    have hi0 : (i 0 : Nat) < 2048 := (i 0).isLt
    have hi1 : (i 1 : Nat) < 1024 := (i 1).isLt
    obtain ⟨t, ht⟩ : ∃ t : Fin cfg1.N, t.val = (i 0 : Nat) / 512 :=
      ⟨⟨(i 0 : Nat) / 512, by rw [show cfg1.N = 4 from N_1]; omega⟩, rfl⟩
    obtain ⟨-, -, -, -, -, -, d0, d1⟩ := blockIdx1 t
    refine ⟨t, flush1_3 t, ?_⟩
    rw [mem_rows1]
    intro a
    match a with
    | ⟨0, _⟩ =>
      show win1_3.index t (0 : Fin 2) * 512 ≤ (i 0 : Nat) ∧ (i 0 : Nat) < win1_3.index t (0 : Fin 2) * 512 + 512
      rw [d0, ht]; omega
    | ⟨1, _⟩ =>
      show win1_3.index t (1 : Fin 2) * 1024 ≤ (i 1 : Nat) ∧ (i 1 : Nat) < win1_3.index t (1 : Fin 2) * 1024 + 1024
      rw [d1]; omega

end Cert.KernelIdeal.ProjValue
end
-- ==== Proof.ProjRows2.lean ====
/-
  Projection three, from blocks of rows to the whole array. The grid has four points; point t takes rows 512·t … 512·t + 511 of
  the activations, the whole weight matrix and the whole bias row, and writes back rows 512·t … 512·t + 511 of the result.
  So what point t writes back is that stretch of rows of `linRow x w b`; every row n is in the stretch of the point
  n / 512; hence the result array ends as `linRow x w b`.
-/
import proofs.«110870_j26259430048704_2_alg».proof.Proof.Gen.KernelIdeal.Frame
import proofs.«110870_j26259430048704_2_alg».proof.Proof.ProjEntry

set_option maxRecDepth 16384
noncomputable section

namespace Cert.KernelIdeal.ProjValue
open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Zero offsets on both axes, however spelt. -/
theorem zeros2 : (![0, 0] : Fin 2 → Nat) = fun _ => 0 := funext fun a => by fin_cases a <;> rfl

/-- The block indices at point t, read off the program's index maps, decided over the four points: the activations' and the
    result's blocks are block t of rows and block 0 of columns; the weights' and the bias row's are block (0, 0). -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT t WRITES BACK is the stretch of rows 512·t … 512·t + 511 of `linRow` of the arrays the region finds. -/
theorem rowsWritten2 (c : Dev nD) (t : Fin cfg2.N) :
    (dat2 (F := Ideal) V c).flushed 3 t
      = ((cfg2.win 3).blk t).view.read (Elt Ideal) (linRow (V c main_arg2) (V c main_arg9) (V c main_v2)) := by
  show (cfg2.win 3).cut (grid2.coords t) ((dat2 V c).after 3 t) = _
  rw [after2_3]
  unfold out2_3
  rw [View.canon_unit_zero zeros2]
  simp only [View.ld_unit_zero (S := S512x1024) zeros2, View.ld_unit_zero (S := S1024x1024) zeros2, View.ld_unit_zero (S := S1x1024) zeros2]
  obtain ⟨a0, a1, b0, b1, c0, c1, d0, d1⟩ := blockIdx2 t
  funext y
  obtain ⟨r, j, rfl⟩ : ∃ (r : Fin 512) (j : Fin 1024), y = ix2 r j := ⟨y 0, y 1, eq_ix2 y⟩
  show k2_pay1 (iblk2 V c 0 t) (iblk2 V c 1 t) (iblk2 V c 2 t) (ix2 r j)
    = linRow (V c main_arg2) (V c main_arg9) (V c main_v2) (((cfg2.win 3).blk t).view.emb (ix2 r j))
  refine (pay2_entry (iblk2 V c 0 t) (iblk2 V c 1 t) (iblk2 V c 2 t) r j).trans ?_
  refine rows_entry (V c main_arg2) (V c main_arg9) (V c main_v2) (iblk2 V c 0 t) (iblk2 V c 1 t) (iblk2 V c 2 t) r j
    (((cfg2.win 3).blk t).view.emb (ix2 r j)) ?_ ?_ ?_ ?_
  · -- the entry's column in the array is its column in the block
    show win2_3.index t (1 : Fin 2) * 1024 + 1 * j.val = j.val
    rw [d1]; omega
  · -- row r of the activations' block is the array's row 512·t + r, where the result's entry lies
    intro k
    unfold iblk2
    rw [View.read_apply]
    show V c main_arg2 _ = V c main_arg2 _
    congr 1
    funext a
    apply Fin.ext
    match a with
    | ⟨0, _⟩ => show win2_0.index t (0 : Fin 2) * 512 + 1 * r.val = win2_3.index t (0 : Fin 2) * 512 + 1 * r.val; rw [a0, d0]
    | ⟨1, _⟩ => show win2_0.index t (1 : Fin 2) * 1024 + 1 * k.val = k.val; rw [a1]; omega
  · -- the weights' block is the whole matrix
    funext z
    unfold iblk2
    rw [View.read_apply]
    show V c main_arg9 _ = V c main_arg9 z
    congr 1
    funext a
    apply Fin.ext
    match a with
    | ⟨0, _⟩ => show win2_1.index t (0 : Fin 2) * 1024 + 1 * (z 0).val = (z 0).val; rw [b0]; omega
    | ⟨1, _⟩ => show win2_1.index t (1 : Fin 2) * 1024 + 1 * (z 1).val = (z 1).val; rw [b1]; omega
  · -- the bias block is the whole row
    funext z
    unfold iblk2
    rw [View.read_apply]
    show V c main_v2 _ = V c main_v2 z
    congr 1
    funext a
    apply Fin.ext
    match a with
    | ⟨0, _⟩ => show win2_2.index t (0 : Fin 2) * 1 + 1 * (z 0).val = (z 0).val; rw [c0]; omega
    | ⟨1, _⟩ => show win2_2.index t (1 : Fin 2) * 1024 + 1 * (z 1).val = (z 1).val; rw [c1]; omega

/-- An index of the result array is in point t's block iff each coordinate is in the block's range on its axis. -/
theorem mem_rows2 (t : Fin cfg2.N) (i : S2048x1024.Idx) :
    i ∈ ((cfg2.win 3).blk t).view.set
      ↔ ∀ a : Fin 2, win2_3.index t a * S512x1024.size a ≤ (i a).val ∧ (i a).val < win2_3.index t a * S512x1024.size a + S512x1024.size a := by
  show i ∈ ((View.whole main_v5).slice (win2_3.rect t)).set ↔ _
  rw [View.set_slice_whole, Rect.mem_set_unit]
  exact Iff.rfl

/-- THE RESULT ARRAY after the region: every row n lies in the block of point n / 512, so the array is `linRow` of the
    arrays the region finds. -/
theorem rows2 (c : Dev nD) :
    (dat2 (F := Ideal) V c).arrAt 3 cfg2.N = linRow (V c main_arg2) (V c main_arg9) (V c main_v2) :=
  (dat2 V c).arrAt_eq_of_cover 3 (linRow (V c main_arg2) (V c main_arg9) (V c main_v2)) (fun t _ => rowsWritten2 V c t) fun i => by
    have hi0 : (i 0 : Nat) < 2048 := (i 0).isLt
    have hi1 : (i 1 : Nat) < 1024 := (i 1).isLt
    obtain ⟨t, ht⟩ : ∃ t : Fin cfg2.N, t.val = (i 0 : Nat) / 512 :=
      ⟨⟨(i 0 : Nat) / 512, by rw [show cfg2.N = 4 from N_2]; omega⟩, rfl⟩
    obtain ⟨-, -, -, -, -, -, d0, d1⟩ := blockIdx2 t
    refine ⟨t, flush2_3 t, ?_⟩
    rw [mem_rows2]
    intro a
    match a with
    | ⟨0, _⟩ =>
      show win2_3.index t (0 : Fin 2) * 512 ≤ (i 0 : Nat) ∧ (i 0 : Nat) < win2_3.index t (0 : Fin 2) * 512 + 512
      rw [d0, ht]; omega
    | ⟨1, _⟩ =>
      show win2_3.index t (1 : Fin 2) * 1024 ≤ (i 1 : Nat) ∧ (i 1 : Nat) < win2_3.index t (1 : Fin 2) * 1024 + 1024
      rw [d1]; omega

end Cert.KernelIdeal.ProjValue
end
-- ==== Proof.ProjValue.lean ====
/-
  The three projections' result arrays. Each projection region ends with its result array holding x·w + b of the three
  arrays it was given (the activations, the weight matrix, the bias as a one-row matrix), whatever the buffers held when
  the region was entered: 512 rows per grid point, four points, every row in exactly one of them.
-/
import proofs.«110870_j26259430048704_2_alg».proof.Proof.ProjRows0
import proofs.«110870_j26259430048704_2_alg».proof.Proof.ProjRows1
import proofs.«110870_j26259430048704_2_alg».proof.Proof.ProjRows2

noncomputable section

namespace Cert.KernelIdeal.ProjValue
open Cert.KernelIdeal Cert.KernelIdeal.Gen Idealize.ShloMosaic Idealize.ShloMosaic.TcCoe Idealize.ShloMosaic.ValueIdx Idealize.SL.Sem

/-- The first projection's result: the queries' activations against their weights, plus their bias row. -/
theorem arr0 (V : (c : Dev nD) → (b : Ref sig .tc) → Buf (Elt Ideal) ((c : Thread nD τ).loc b)) (c : Dev nD) :
    (dat0 (F := Ideal) V c).arrAt 3 cfg0.N = linRow (V c main_arg0) (V c main_arg5) (V c main_v0) := rows0 V c
/-- The second projection's result: the keys'. -/
theorem arr1 (V : (c : Dev nD) → (b : Ref sig .tc) → Buf (Elt Ideal) ((c : Thread nD τ).loc b)) (c : Dev nD) :
    (dat1 (F := Ideal) V c).arrAt 3 cfg1.N = linRow (V c main_arg1) (V c main_arg7) (V c main_v1) := rows1 V c
/-- The third projection's result: the values'. -/
theorem arr2 (V : (c : Dev nD) → (b : Ref sig .tc) → Buf (Elt Ideal) ((c : Thread nD τ).loc b)) (c : Dev nD) :
    (dat2 (F := Ideal) V c).arrAt 3 cfg2.N = linRow (V c main_arg2) (V c main_arg9) (V c main_v2) := rows2 V c

end Cert.KernelIdeal.ProjValue
end
-- ==== Proof.Spec.lean ====
/-
  Masked multi-head attention over linearly projected inputs, as ONE function of the argument arrays, read entry by entry
  on the extended reals. With q, k, v of 2048 rows and 1024 columns, 16 heads of 64 lanes each (head h owns the columns
  64·h … 64·h + 63), a score bias per (head, row, row) and a 0/1 mask per (row, row):

    lin x w b (n, j)      = Σ_k x(n, k) · w(k, j) + b(j)                                  the three projections
    score (h, n, m)       = if mask(n, m) then Σ_d (q'(n, 64h+d) · 1/8) · k'(m, 64h+d) + bias(h, n, m) else 0
    weight s (m)          = exp(s m − M) / Σ_m' exp(s m' − M),   M = max(−∞, max over m of s m)   the row's softmax
    attend (h, n, d)      = Σ_m weight(score (h, n, ·)) (m) · v'(m, 64h+d)
    result (n, 64h+d)     = attend (h, n, d).

  The literals (1/8, 0, −∞) are kept as the f32 words both programs print; nothing here evaluates them.
-/
import Idealize.ShloMosaic.PureOps.Ideal
import Idealize.ShloMosaic.Lib.ValueIdx

noncomputable section

namespace Cert.Spec

open Idealize.ShloMosaic Idealize.ShloMosaic.ValueIdx

/-- The activations q, k, v and the result: 2048 rows of 1024 columns. -/
abbrev Acts : Shape := ⟨2, ![2048, 1024]⟩
/-- A projection's weight matrix. -/
abbrev Wts : Shape := ⟨2, ![1024, 1024]⟩
/-- A projection's bias vector. -/
abbrev Bvec : Shape := ⟨1, ![1024]⟩
/-- The score bias: one 2048 × 2048 matrix per head. -/
abbrev Scores : Shape := ⟨3, ![16, 2048, 2048]⟩
/-- The mask over (query row, key row). -/
abbrev Pairs : Shape := ⟨2, ![2048, 2048]⟩

/-- A linear layer's entry (n, j): the row of `x` against the column of `w`, plus the bias. -/
def lin (x : Acts.Idx → EReal) (w : Wts.Idx → EReal) (b : Bvec.Idx → EReal) (n : Fin 2048) (j : Fin 1024) : EReal :=
  (∑ k : Fin 1024, x (ix2 n k) * w (ix2 k j)) + b (ix1 j)

/-- Lane `d` of head `h` is column 64·h + d. -/
def col (h : Fin 16) (d : Fin 64) : Fin 1024 := ⟨h.val * 64 + d.val, by omega⟩

/-- The masked score of query row `n` against key row `m` in head `h`: the scaled dot product plus the bias where the
    mask is on, zero where it is off. `qh h n d`, `kh h m d` are the projected queries and keys by (head, row, lane). -/
def score (qh kh : Fin 16 → Fin 2048 → Fin 64 → EReal) (bias : Scores.Idx → EReal) (mask : Pairs.Idx → BitVec 1)
    (h : Fin 16) (n m : Fin 2048) : EReal :=
  Scalar.select (mask (ix2 n m))
    ((∑ d : Fin 64, (qh h n d * Ideal.ofBits .f32 0x3E000000#32) * kh h m d) + bias (ix3 h n m))
    (Ideal.ofBits .f32 0x00000000#32)

/-- The shift a row's softmax subtracts: the row's maximum, taken from −∞ and once more against −∞. -/
def rowMax (s : Fin 2048 → EReal) : EReal :=
  max (Ideal.ofBits .f32 0xFF800000#32) ((Finset.univ : Finset (Fin 2048)).fold max (Ideal.ofBits .f32 0xFF800000#32) s)

/-- A row's softmax weight at `m`. -/
def weight (s : Fin 2048 → EReal) (m : Fin 2048) : EReal :=
  Ideal.div (Ideal.exp (s m - rowMax s)) (∑ m' : Fin 2048, Ideal.exp (s m' - rowMax s))

/-- Attention's entry (head, row, lane): the softmax weights of the row's scores against the values' lane. -/
def attend (qh kh vh : Fin 16 → Fin 2048 → Fin 64 → EReal) (bias : Scores.Idx → EReal) (mask : Pairs.Idx → BitVec 1)
    (h : Fin 16) (n : Fin 2048) (d : Fin 64) : EReal :=
  ∑ m : Fin 2048, weight (score qh kh bias mask h n) m * vh h m d

/-- The whole result: entry (n, j) is attention's entry (j / 64, n, j % 64) over the three projections. -/
def result (x0 x1 x2 : Acts.Idx → EReal) (x3 : Scores.Idx → EReal) (mask : Pairs.Idx → BitVec 1)
    (x5 : Wts.Idx → EReal) (x6 : Bvec.Idx → EReal) (x7 : Wts.Idx → EReal) (x8 : Bvec.Idx → EReal)
    (x9 : Wts.Idx → EReal) (x10 : Bvec.Idx → EReal) : Acts.Idx → EReal := fun i =>
  attend (fun h n d => lin x0 x5 x6 n (col h d)) (fun h n d => lin x1 x7 x8 n (col h d)) (fun h n d => lin x2 x9 x10 n (col h d))
    x3 mask ⟨(i 1).val / 64, by have := idx2_lt1 i; omega⟩ ⟨(i 0).val, idx2_lt0 i⟩ ⟨(i 1).val % 64, Nat.mod_lt _ (by decide)⟩

end Cert.Spec

end
-- ==== Proof.Projections.lean ====
/-
  The program's projections entry by entry, and the reading of the head-major layout.
-/
import proofs.«110870_j26259430048704_2_alg».proof.Proof.Boundaries
import proofs.«110870_j26259430048704_2_alg».proof.Proof.ProjValue
import proofs.«110870_j26259430048704_2_alg».proof.Proof.Spec
import Idealize.ShloMosaic.Lib.Pipeline.Value
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem

/-! ## The head-major layout -/

/-- Splitting the 1024 columns into 16 heads of 64 lanes and moving the head axis first: entry (h, n, d) is entry
    (n, 64·h + d) of the matrix. -/
theorem heads_apply {α : Type} (y : S2048x1024.Idx → α) (h : Fin 16) (n : Fin 2048) (d : Fin 64) :
    transpose S16x2048x64 [1, 0, 2] (shapeCast S2048x16x64 y shapeCasts_S2048x1024_S2048x16x64)
      transposes_S2048x16x64_S16x2048x64_1_0_2 (ix3 h n d) = y (ix2 n (Cert.Spec.col h d)) := by
  refine (transpose_apply [1, 0, 2] _ transposes_S2048x16x64_S16x2048x64_1_0_2 (ix3 h n d) (ix3 n h d) (fun b => match b with
    | ⟨0, _⟩ => rfl
    | ⟨1, _⟩ => rfl
    | ⟨2, _⟩ => rfl)).trans ?_
  exact shapeCast_apply y shapeCasts_S2048x1024_S2048x16x64 (ix3 n h d) (ix2 n (Cert.Spec.col h d))
    (by rewrite [Shape.rowMajor_val_two, Shape.rowMajor_val_three]
        show n.val * 1024 + (h.val * 64 + d.val) = (n.val * 16 + h.val) * 64 + d.val
        omega)

/-- The way back: moving the row axis first and joining heads and lanes into 1024 columns, entry (n, j) is entry
    (j / 64, n, j % 64). -/
theorem unheads_apply {α : Type} (z : S16x2048x64.Idx → α) (n : Fin 2048) (j : Fin 1024) :
    shapeCast S2048x1024 (transpose S2048x16x64 [1, 0, 2] z transposes_S16x2048x64_S2048x16x64_1_0_2)
      shapeCasts_S2048x16x64_S2048x1024 (ix2 n j)
      = z (ix3 ⟨j.val / 64, by omega⟩ n ⟨j.val % 64, Nat.mod_lt _ (by decide)⟩) := by
  refine (shapeCast_apply _ shapeCasts_S2048x16x64_S2048x1024 (ix2 n j)
    (ix3 n (⟨j.val / 64, by omega⟩ : Fin 16) (⟨j.val % 64, Nat.mod_lt _ (by decide)⟩ : Fin 64))
    (by rewrite [Shape.rowMajor_val_three, Shape.rowMajor_val_two]
        show (n.val * 16 + j.val / 64) * 64 + j.val % 64 = n.val * 1024 + j.val
        omega)).trans ?_
  exact transpose_apply [1, 0, 2] z transposes_S16x2048x64_S2048x16x64_1_0_2 _ _ (fun b => match b with
    | ⟨0, _⟩ => rfl
    | ⟨1, _⟩ => rfl
    | ⟨2, _⟩ => rfl)

/-- A bias vector cast to one row, read at column `j`. -/
theorem biasRow_apply {α : Type} (b : S1024.Idx → α) (j : Fin 1024) :
    shapeCast S1x1024 b shapeCasts_S1024_S1x1024 (ix2 (0 : Fin 1) j) = b (ix1 j) :=
  shapeCast_apply b shapeCasts_S1024_S1x1024 (ix2 (0 : Fin 1) j) (ix1 j)
    (by rewrite [Shape.rowMajor_val_one, Shape.rowMajor_val_two]; show j.val = 0 * 1024 + j.val; omega)

/-! ## The three projections -/

variable (m : (ℓ : Loc nD τ sig) → Buf (Elt Ideal) ℓ) (ρ : Dev nD → PrngReg) (c : Dev nD)

/-- The linear layer over a one-row bias is the linear layer over the bias vector the row was cast from. -/
theorem linRow_cast (x : S2048x1024.Idx → EReal) (w : S1024x1024.Idx → EReal) (b : S1024.Idx → EReal) (n : Fin 2048) (j : Fin 1024) :
    ProjValue.linRow x w (shapeCast S1x1024 b shapeCasts_S1024_S1x1024) (ix2 n j) = Cert.Spec.lin x w b n j := by
  unfold ProjValue.linRow Cert.Spec.lin
  exact congrArg _ (biasRow_apply b j)

theorem proj_q_entry (n : Fin 2048) (j : Fin 1024) :
    (W4 m ρ c (Proc.devRef .tc main_v3) : S2048x1024.Idx → EReal) (ix2 n j)
      = Cert.Spec.lin (m ((c : Thread nD τ).loc main_arg0)) (m ((c : Thread nD τ).loc main_arg5)) (m ((c : Thread nD τ).loc main_arg6)) n j := by
  rw [Boundaries.proj_q, ProjValue.arr0, Boundaries.first_x, Boundaries.first_w, Boundaries.first_b]
  exact linRow_cast _ _ _ n j

theorem proj_k_entry (n : Fin 2048) (j : Fin 1024) :
    (W4 m ρ c (Proc.devRef .tc main_v4) : S2048x1024.Idx → EReal) (ix2 n j)
      = Cert.Spec.lin (m ((c : Thread nD τ).loc main_arg1)) (m ((c : Thread nD τ).loc main_arg7)) (m ((c : Thread nD τ).loc main_arg8)) n j := by
  rw [Boundaries.proj_k, ProjValue.arr1, Boundaries.second_x, Boundaries.second_w, Boundaries.second_b]
  exact linRow_cast _ _ _ n j

theorem proj_v_entry (n : Fin 2048) (j : Fin 1024) :
    (W4 m ρ c (Proc.devRef .tc main_v5) : S2048x1024.Idx → EReal) (ix2 n j)
      = Cert.Spec.lin (m ((c : Thread nD τ).loc main_arg2)) (m ((c : Thread nD τ).loc main_arg9)) (m ((c : Thread nD τ).loc main_arg10)) n j := by
  rw [Boundaries.proj_v, ProjValue.arr2, Boundaries.third_x, Boundaries.third_w, Boundaries.third_b]
  exact linRow_cast _ _ _ n j

end Cert.KernelIdeal.Whole

end
-- ==== Proof.LibKeepdims.lean ====
/-
  Column ("keepdims") layout forms, one-axis reductions of a matrix and the one-hot mask, read at an index.

  A reduction that keeps its axis as a unit axis leaves a column `[a, 1]`; the next operation broadcasts the column along
  the rows' entries. Lib/ValueLayout.lean has the leading-unit-axis casts and the row broadcast `[1, b] → [a, b]`; here are
  the column cast `[a] → [a, 1]` and the column broadcast `[a, 1] → [a, b]`, in the same style.

  At the ideal values a `vector.multi_reduction` of a matrix over one of its two axes is the sum (or the fold of `max`)
  over that axis's coordinates with the other coordinate fixed: PureOps/Ideal/Laws.lean's one-axis readings with the
  inserted index written by coordinates.

  The one-hot mask `(iota along d == w)` converted to a float is `1` where the coordinate's word is `w` and `0` elsewhere; a
  sum of products with it keeps the one selected term, whatever the other factor is (on the extended reals `x * 0 = 0` and
  `x * 1 = x` for every `x`, infinite or not).
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibKeepdims

open Idealize.ShloMosaic Idealize.ShloMosaic.ValueIdx

/-! ## The column cast and the column broadcast -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A matrix reduced over one axis, at the ideal values -/

section Reduce
variable {φ : FTy}

/-- The sum over the entries of each row: `[a, b]` reduced over axis 1, read at row `i`. -/
theorem multiReduction_add_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

/-- The sum over the rows of each column: `[a, b]` reduced over axis 0, read at column `k`. -/
theorem multiReduction_add_axis0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (k : Fin b) :
    multiReduction .add [0] ⟨1, ![b]⟩ src acc h hφ hacc (ix1 k) = ∑ i : Fin a, src (ix2 i k) :=
  (Ideal.multiReduction_add_single src acc h hφ hacc (ix1 k)).trans
    (Finset.sum_congr rfl fun i _ => congrArg src (funext fun c => Fin.ext (by
      match c with
      | ⟨0, _⟩ => rfl
      | ⟨1, _⟩ => rfl)))

/-- The maximum over the entries of each row, from the accumulator's value: `[a, b]` reduced by `max` over axis 1. -/
theorem multiReduction_maximumf_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg ((Finset.univ : Finset (Fin b)).fold max (Ideal.ofBits φ acc)) (funext fun k => congrArg src (funext fun c => Fin.ext (by
      match c with
      | ⟨0, _⟩ => rfl
      | ⟨1, _⟩ => rfl))))

end Reduce

/-! ## The one-hot mask -/

section Mask

/-- Two naturals below `2 ^ 32` have the same 32-bit word exactly when they are equal. -/
theorem ofNat32_eq_iff {n b : ℕ} (hn : n < 2 ^ 32) (hb : b < 2 ^ 32) : BitVec.ofNat 32 n = BitVec.ofNat 32 b ↔ n = b := by
  constructor
  · intro e
    have := congrArg BitVec.toNat e
    rwa [BitVec.toNat_ofNat, BitVec.toNat_ofNat, Nat.mod_eq_of_lt hn, Nat.mod_eq_of_lt hb] at this
  · intro e; rw [e]

/-- A comparison bit, widened to a word and read as a signed integer at the ideal values, is `1` or `0`. -/
theorem sitofp_extui_cmpi_eq (x y : BitVec 32) (h : 1 < 32) :
    (FloatOps.sitofp (F := Ideal) .f32 ((IntOp.cmpi .eq x y).setWidth 32) : EReal) = if x = y then 1 else 0 := by
  show (((((BitVec.ofBool (x == y)).setWidth 32).toInt : ℝ)) : EReal) = _
  by_cases e : x = y
  · have h1 : ((BitVec.ofBool true).setWidth 32).toInt = 1 := by decide
    rw [if_pos e, beq_iff_eq.2 e, h1, Int.cast_one, EReal.coe_one]
  · have h0 : ((BitVec.ofBool false).setWidth 32).toInt = 0 := by decide
    rw [if_neg e, beq_eq_false_iff_ne.2 e, h0, Int.cast_zero, EReal.coe_zero]

/-- The mask `(iota along d == w)` as a float: `1` where the coordinate's word is `w`, `0` elsewhere. -/
theorem mask_apply (s : Shape) (d : Fin s.rank) (h : s.Iotas .tc 32 [d]) (w : BitVec 32) (hlt : 1 < 32) (i : s.Idx) :
    (sitofp .f32 (extui 32 (cmpi .eq (iota .tc s 32 [d] h) (broadcast s w)) hlt) : FVec Ideal s .f32) i
      = if BitVec.ofNat 32 (i d).val = w then (1 : EReal) else 0 := by
  rw [sitofp_apply, extui_apply]
  show (FloatOps.sitofp (F := Ideal) .f32 ((IntOp.cmpi .eq (iota .tc s 32 [d] h i) w).setWidth 32) : EReal) = _
  rw [iota_single_apply, sitofp_extui_cmpi_eq _ _ hlt]

/-- The same against the word of a natural `b`: the mask picks the coordinate `b`. -/
theorem mask_ofNat_apply (s : Shape) (d : Fin s.rank) (h : s.Iotas .tc 32 [d]) (b : ℕ) (hlt : 1 < 32) (i : s.Idx)
    (hi : (i d).val < 2 ^ 32) (hb : b < 2 ^ 32) :
    (sitofp .f32 (extui 32 (cmpi .eq (iota .tc s 32 [d] h) (broadcast s (BitVec.ofNat 32 b))) hlt) : FVec Ideal s .f32) i
      = if (i d).val = b then (1 : EReal) else 0 := by
  rw [mask_apply]
  by_cases e : (i d).val = b
  · rw [if_pos e, if_pos ((ofNat32_eq_iff hi hb).2 e)]
  · rw [if_neg e, if_neg (fun e' => e ((ofNat32_eq_iff hi hb).1 e'))]

/-- A sum of products with a one-hot factor keeps the selected term. No finiteness is asked: on the extended reals
    `x * 0 = 0` and `x * 1 = x` for every `x`. -/
theorem sum_mul_onehot {n : ℕ} (f : Fin n → EReal) (b : Fin n) :
    ∑ l : Fin n, f l * (if l.val = b.val then (1 : EReal) else 0) = f b := by
  rw [Finset.sum_eq_single b]
  · rw [if_pos rfl, mul_one]
  · intro l _ hl
    rw [if_neg (fun e => hl (Fin.ext e)), mul_zero]
  · intro hb; exact absurd (Finset.mem_univ b) hb

end Mask

end Cert.LibKeepdims

end
-- ==== Proof.AttnPayload.lean ====
/-
  The attention body's arithmetic, read at one entry.

  One grid point holds a block of 256 query rows of one head (64 lanes), that head's 2048 key rows and 2048 value rows,
  the 256 × 2048 block of the score bias and the 256 × 2048 block of the keep matrix. The body forms

    s(r, m) = if keep(r, m) ≠ 0 then Σ_d (q(r, d) · 1/8) · k(m, d) + bias(r, m) else 0,
    M(r)    = max(−∞, max_m s(r, m)),   e(r, m) = exp(s(r, m) − M(r)),   w(r, m) = e(r, m) / Σ_m' e(r, m'),
    o(r, d) = Σ_m w(r, m) · v(m, d),

  on the extended reals, where a change of float format is the identity. Here each stage of the body is named as a
  vector, the body's stored value is shown to be the composition of the stages, and each stage is read at an entry:
  a matrix product into the zero accumulator is the sum over the contracted coordinate, a transpose swaps the two
  coordinates, a reduction along the row followed by the column layout and the broadcast along the row is the row's
  maximum or sum at every entry of the row. The result is the specification's softmax weights of row r's scores against
  lane d of the values.
-/
import proofs.«110870_j26259430048704_2_alg».proof.Proof.Gen.KernelIdeal.Skeleton
import proofs.«110870_j26259430048704_2_alg».proof.Proof.Spec
import proofs.«110870_j26259430048704_2_alg».proof.Proof.LibKeepdims
import Idealize.ShloMosaic.Lib.ValueIdx
import Idealize.ShloMosaic.Lib.ValueLayout
import Idealize.ShloMosaic.PureOps.Ideal.Laws

noncomputable section

open scoped BigOperators

namespace Cert.KernelIdeal.AttnValue

open Cert.KernelIdeal Cert.KernelIdeal.Gen Idealize.ShloMosaic Idealize.ShloMosaic.ValueIdx

/-! ## A plain matrix product into the zero accumulator, read at an entry -/

section Plain
variable {m k n : ℕ} (w : DotDims.WF ⟨2, ![m, k]⟩ ⟨2, ![k, n]⟩ ⟨2, ![m, n]⟩ [1] [0] [0] [1] [] [])

/-- The left operand's row coordinate is the result's row coordinate, whatever the contraction index. -/
theorem plain_lhs_row (j : (⟨2, ![m, n]⟩ : Shape).Idx)
    (q : (⟨[1], [0], [0], [1], [], [], w⟩ : DotDims ⟨2, ![m, k]⟩ ⟨2, ![k, n]⟩ ⟨2, ![m, n]⟩).contr.Idx) :
    ((⟨[1], [0], [0], [1], [], [], w⟩ : DotDims ⟨2, ![m, k]⟩ ⟨2, ![k, n]⟩ ⟨2, ![m, n]⟩).lhsIdx j q 0).val = (j 0).val := by
  unfold DotDims.lhsIdx
  rw [dif_neg List.not_mem_nil, dif_pos (List.mem_singleton.mpr rfl)]
  rfl

/-- The right operand's column coordinate is the result's column coordinate, whatever the contraction index. -/
theorem plain_rhs_col (j : (⟨2, ![m, n]⟩ : Shape).Idx)
    (q : (⟨[1], [0], [0], [1], [], [], w⟩ : DotDims ⟨2, ![m, k]⟩ ⟨2, ![k, n]⟩ ⟨2, ![m, n]⟩).contr.Idx) :
    ((⟨[1], [0], [0], [1], [], [], w⟩ : DotDims ⟨2, ![m, k]⟩ ⟨2, ![k, n]⟩ ⟨2, ![m, n]⟩).rhsIdx j q 1).val = (j 1).val := by
  unfold DotDims.rhsIdx
  rw [dif_neg List.not_mem_nil, dif_pos (List.mem_singleton.mpr rfl)]
  rfl

/-- An m × k matrix times a k × n matrix, accumulated into zero, has at (a, b) the sum over the contracted coordinate
    of the products of the row's and the column's entries. -/
theorem matmul_plain_zero_apply {φ₁ φ₂ : FTy}
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant (F := Ideal) ⟨2, ![m, n]⟩ .f32 0x00000000#32) (ix2 a b)
      = ∑ c : Fin k, A (ix2 a c) * B (ix2 c b) := by
  refine (Ideal.matmul_constant_zero_apply _ prec A B (ix2 a b)).trans ?_
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hk := contrEquiv1_symm_val (⟨[1], [0], [0], [1], [], [], w⟩ : DotDims ⟨2, ![m, k]⟩ ⟨2, ![k, n]⟩ ⟨2, ![m, n]⟩) k rfl rfl c
  have el : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := funext fun ax => Fin.ext (by
    match ax with
    | ⟨0, _⟩ => exact plain_lhs_row w _ _
    | ⟨1, _⟩ => exact (DotDims.lhsIdx_val_of_single _ rfl _ _).trans hk)
  have er : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := funext fun ax => Fin.ext (by
    match ax with
    | ⟨0, _⟩ => exact (DotDims.rhsIdx_val_of_single _ rfl _ _).trans hk
    | ⟨1, _⟩ => exact plain_rhs_col w _ _)
  rw [el, er]

end Plain

/-! ## The body's arithmetic, stage by stage -/

section Body
variable (x0 : Vec Ideal S1x256x64 .f32) (x1 x2 : Vec Ideal S1x2048x64 .bf16) (x3 : Vec Ideal S1x256x2048 .f32)
  (x4 : Vec Ideal S256x2048 .bf16)

/-- The block's masked scores as the body computes them: the scaled queries times the transposed keys, plus the bias,
    kept where the keep block is not zero and replaced by zero elsewhere. -/
def scoresVec : FVec Ideal S256x2048 .f32 :=
  select
    (cmpf .one (shapeCast S256x2048 x4 Facts₀.shapeCasts_S256x2048_S256x2048)
      (broadcast S256x2048 (Scalar.ofBits (F := Ideal) .bf16 0x0000#16)))
    (addf
      (matmul dot_S256x64_S64x2048_S256x2048_1_0_0_1_n_n none
        (truncf .bf16 (mulf (shapeCast S256x64 x0 Facts₀.shapeCasts_S1x256x64_S256x64)
          (broadcast S256x64 (Scalar.ofBits (F := Ideal) .f32 0x3E000000#32))) Facts₀.bitsLt_bf16_f32)
        (transpose S64x2048 [1, 0] (shapeCast S2048x64 x1 Facts₀.shapeCasts_S1x2048x64_S2048x64 : FVec Ideal S2048x64 .bf16)
          Facts₀.transposes_S2048x64_p1_0_S64x2048 : FVec Ideal S64x2048 .bf16)
        (constant S256x2048 .f32 0x00000000#32))
      (shapeCast S256x2048 x3 Facts₀.shapeCasts_S1x256x2048_S256x2048))
    (broadcast S256x2048 (Scalar.ofBits (F := Ideal) .f32 0x00000000#32))

/-- Each row's shift, laid out along the row: the row's maximum from −∞, once more against −∞, as a column broadcast
    over the row's entries. -/
def shiftVec (s : FVec Ideal S256x2048 .f32) : FVec Ideal S256x2048 .f32 :=
  broadcastTo S256x2048
    (shapeCast S256x1
      (maximumf (broadcast S256 (Scalar.ofBits (F := Ideal) .f32 0xFF800000#32))
        (multiReduction .maximumf [1] S256 s 0xFF800000#32 Facts₀.reduces_S256x2048_S256 (.inl rfl) rfl))
      Facts₀.shapeCasts_S256_S256x1)
    Facts₀.broadcasts_S256x1_S256x2048

/-- The exponentials of the shifted scores. -/
def expVec (s : FVec Ideal S256x2048 .f32) : FVec Ideal S256x2048 .f32 := exp (subf s (shiftVec s))

/-- Each row's sum of exponentials, laid out along the row. -/
def sumVec (e : FVec Ideal S256x2048 .f32) : FVec Ideal S256x2048 .f32 :=
  broadcastTo S256x2048
    (shapeCast S256x1
      (multiReduction .add [1] S256 e 0x00000000#32 Facts₀.reduces_S256x2048_S256 (.inl rfl) rfl)
      Facts₀.shapeCasts_S256_S256x1)
    Facts₀.broadcasts_S256x1_S256x2048

/-- The rows' softmax weights. -/
def weightsVec (s : FVec Ideal S256x2048 .f32) : FVec Ideal S256x2048 .f32 := divf (expVec s) (sumVec (expVec s))

/-- The body's stored value is the weights times the values, seen as a one-member stack. -/
theorem pay_eq_stages :
    k3_pay1 (k3_pay2 x0 x1 x2 x3 x4)
      = shapeCast S1x256x64
          (matmul dot_S256x2048_S2048x64_S256x64_1_0_0_1_n_n none
            (truncf .bf16 (weightsVec (scoresVec x0 x1 x3 x4)) Facts₀.bitsLt_bf16_f32)
            (shapeCast S2048x64 x2 Facts₀.shapeCasts_S1x2048x64_S2048x64 : FVec Ideal S2048x64 .bf16)
            (constant S256x64 .f32 0x00000000#32))
          Facts₀.shapeCasts_S256x64_S1x256x64 := rfl

end Body

/-! ## The stages read at an entry -/

section Entries
variable (x0 : Vec Ideal S1x256x64 .f32) (x1 x2 : Vec Ideal S1x2048x64 .bf16) (x3 : Vec Ideal S1x256x2048 .f32)
  (x4 : Vec Ideal S256x2048 .bf16)

/-- The masked score of the block's query row `r` against key row `m`: the scaled dot product over the 64 lanes plus the
    bias where the keep entry is not zero, zero where it is. -/
def blkScore (r : Fin 256) (m : Fin 2048) : EReal :=
  Scalar.select (FloatOps.cmpf (F := Ideal) (φ := .bf16) .one (x4 (ix2 r m)) (Ideal.ofBits .bf16 0x0000#16))
    ((∑ d' : Fin 64, (x0 (ix3 0 r d') * Ideal.ofBits .f32 0x3E000000#32) * x1 (ix3 0 m d')) + x3 (ix3 0 r m))
    (Ideal.ofBits .f32 0x00000000#32)

/-- The score stage at (r, m). -/
theorem scoresVec_apply (r : Fin 256) (m : Fin 2048) : scoresVec x0 x1 x3 x4 (ix2 r m) = blkScore x0 x1 x3 x4 r m := by
  unfold scoresVec blkScore
  rw [select_apply, cmpf_apply, addf_apply, broadcast_apply, broadcast_apply, shapeCast_self,
    shapeCast_1ab_ab_apply x3]
  refine congrArg (fun t : EReal => Scalar.select
    (FloatOps.cmpf (F := Ideal) (φ := .bf16) .one (x4 (ix2 r m)) (Ideal.ofBits .bf16 0x0000#16)) (t + x3 (ix3 0 r m))
    (Ideal.ofBits .f32 0x00000000#32)) ?_
  refine (matmul_plain_zero_apply Facts₀.dot_S256x64_S64x2048_S256x2048_1_0_0_1_n_n_wf none _ _ r m).trans ?_
  refine Finset.sum_congr rfl fun c _ => ?_
  rw [transpose_ix2_apply, shapeCast_1ab_ab_apply x1]
  show shapeCast S256x64 x0 _ (ix2 r c) * Ideal.ofBits .f32 0x3E000000#32 * _ = _
  rw [shapeCast_1ab_ab_apply x0]

/-- The shift stage at (r, m) is the row's shift. -/
theorem shiftVec_apply (s : FVec Ideal S256x2048 .f32) (r : Fin 256) (m : Fin 2048) :
    shiftVec s (ix2 r m) = Cert.Spec.rowMax (fun m' => s (ix2 r m')) := by
  unfold shiftVec Cert.Spec.rowMax
  rw [Cert.LibKeepdims.broadcastTo_a1_ab_apply, Cert.LibKeepdims.shapeCast_a_a1_apply, maximumf_apply, broadcast_apply]
  exact congrArg (max _) (Cert.LibKeepdims.multiReduction_maximumf_axis1 s 0xFF800000#32 _ _ _ r)

/-- The exponential stage at (r, m). -/
theorem expVec_apply (s : FVec Ideal S256x2048 .f32) (r : Fin 256) (m : Fin 2048) :
    expVec s (ix2 r m) = Ideal.exp (s (ix2 r m) - Cert.Spec.rowMax (fun m' => s (ix2 r m'))) := by
  show Ideal.exp (s (ix2 r m) - shiftVec s (ix2 r m)) = _
  rw [shiftVec_apply]

/-- The sum stage at (r, m) is the row's sum. -/
theorem sumVec_apply (e : FVec Ideal S256x2048 .f32) (r : Fin 256) (m : Fin 2048) :
    sumVec e (ix2 r m) = ∑ m' : Fin 2048, e (ix2 r m') := by
  unfold sumVec
  rw [Cert.LibKeepdims.broadcastTo_a1_ab_apply, Cert.LibKeepdims.shapeCast_a_a1_apply]
  exact Cert.LibKeepdims.multiReduction_add_axis1 e 0x00000000#32 _ _ _ r

/-- The weight stage at (r, m) is the row's softmax weight at m. -/
theorem weightsVec_apply (s : FVec Ideal S256x2048 .f32) (r : Fin 256) (m : Fin 2048) :
    weightsVec s (ix2 r m) = Cert.Spec.weight (fun m' => s (ix2 r m')) m := by
  unfold weightsVec Cert.Spec.weight
  rw [divf_apply, sumVec_apply, expVec_apply]
  exact congrArg (Ideal.div _) (Finset.sum_congr rfl fun m' _ => expVec_apply s r m')

/-- THE BODY'S VALUE AT (0, r, d): the softmax weights of row r's masked scores against the values' lane d. -/
theorem pay_apply (r : Fin 256) (d : Fin 64) :
    k3_pay1 (k3_pay2 x0 x1 x2 x3 x4) (ix3 0 r d)
      = ∑ m : Fin 2048, Cert.Spec.weight (blkScore x0 x1 x3 x4 r) m * x2 (ix3 0 m d) := by
  rw [pay_eq_stages, shapeCast_ab_1ab_apply]
  refine (matmul_plain_zero_apply Facts₀.dot_S256x2048_S2048x64_S256x64_1_0_0_1_n_n_wf none _ _ r d).trans ?_
  refine Finset.sum_congr rfl fun m _ => ?_
  rw [shapeCast_1ab_ab_apply x2, truncf_apply, weightsVec_apply]
  exact congrArg (fun f => Cert.Spec.weight f m * _) (funext fun m' => scoresVec_apply x0 x1 x3 x4 r m')

end Entries

end Cert.KernelIdeal.AttnValue

end
-- ==== Proof.AttnValue.lean ====
/-
  The attention region's output array.

  The region runs the attention body at 128 points: point t = (row block t / 16, head t % 16). At a point the body
  holds rows 256·(t / 16) … 256·(t / 16) + 255 of head t % 16's queries and score bias, all 2048 key rows and value rows
  of that head, and the same 256 rows of the keep matrix; it writes back the 256 × 64 block of the output at
  (head, row block). An entry (h, n, d) of the output therefore depends on row n of head h's queries and bias, on row n
  of the keep matrix, and on every key and value row of head h — exactly the arguments of the specification's
  `attend` at (h, n, d).

  `block_eq` says so for one block over variables (the body's value at (0, r, d) is the array's entry at (head, row r, d)
  once each loaded block is the stated part of its array); `idx_facts` decides the relations between the six block index
  maps once over the 128 points (a block's element sits at block index × block size + its coordinate inside the block);
  `flushed_eq` reads what a symbolic point writes back as the block of the attention array; `cover` places entry
  (h, n, d) in the block of point (n / 256)·16 + h; `arr3` concludes that the array after the region is the attention
  array of the arrays the region found.
-/
import proofs.«110870_j26259430048704_2_alg».proof.Proof.Gen.KernelIdeal.Frame
import proofs.«110870_j26259430048704_2_alg».proof.Proof.Spec
import proofs.«110870_j26259430048704_2_alg».proof.Proof.AttnPayload
import Idealize.ShloMosaic.Lib.Pipeline.Value
import Idealize.ShloMosaic.Lib.ValueIdx
import Idealize.ShloMosaic.PureOps.Ideal.Laws

noncomputable section

open scoped BigOperators

namespace Cert.KernelIdeal.AttnValue

open Cert.KernelIdeal Cert.KernelIdeal.Gen Idealize.ShloMosaic Idealize.ShloMosaic.TcCoe Idealize.ShloMosaic.ValueIdx Idealize.SL.Sem
open Idealize.ShloMosaic.Pipeline (Dat)

/-- The attention region's whole output array from the arrays as the region finds them: queries, keys, values by
    (head, row, lane), the score bias, and the 0/1 keep matrix (a float; an entry counts as on when it is not zero). -/
def attnArr (Q K Vv : S16x2048x64.Idx → EReal) (B : S16x2048x2048.Idx → EReal) (Kp : S2048x2048.Idx → EReal) : S16x2048x64.Idx → EReal :=
  fun i => Cert.Spec.attend (fun h n d => Q (ix3 h n d)) (fun h n d => K (ix3 h n d)) (fun h n d => Vv (ix3 h n d)) B
    (fun p => FloatOps.cmpf (F := Ideal) (φ := .bf16) .one (Kp p) (Ideal.ofBits .bf16 0x0000#16))
    ⟨(i 0).val, (i 0).isLt⟩ ⟨(i 1).val, (i 1).isLt⟩ ⟨(i 2).val, (i 2).isLt⟩

/-! ## One block of the array -/

/-- When the five blocks a point holds are the stated parts of the arrays — the query and bias rows `row r` of head `hh`,
    all key and value rows of head `hh`, the keep rows `row r` — the body's value at (0, r, d) is the array's entry
    (hh, row r, d). -/
theorem block_eq (Q K Vv : S16x2048x64.Idx → EReal) (B : S16x2048x2048.Idx → EReal) (Kp : S2048x2048.Idx → EReal)
    (x0 : Vec Ideal S1x256x64 .f32) (x1 x2 : Vec Ideal S1x2048x64 .bf16) (x3 : Vec Ideal S1x256x2048 .f32)
    (x4 : Vec Ideal S256x2048 .bf16) (hh : Fin 16) (row : Fin 256 → Fin 2048)
    (h0 : ∀ (r : Fin 256) (d : Fin 64), x0 (ix3 0 r d) = Q (ix3 hh (row r) d))
    (h1 : ∀ (m : Fin 2048) (d : Fin 64), x1 (ix3 0 m d) = K (ix3 hh m d))
    (h2 : ∀ (m : Fin 2048) (d : Fin 64), x2 (ix3 0 m d) = Vv (ix3 hh m d))
    (h3 : ∀ (r : Fin 256) (m : Fin 2048), x3 (ix3 0 r m) = B (ix3 hh (row r) m))
    (h4 : ∀ (r : Fin 256) (m : Fin 2048), x4 (ix2 r m) = Kp (ix2 (row r) m))
    (r : Fin 256) (d : Fin 64) :
    k3_pay1 (k3_pay2 x0 x1 x2 x3 x4) (ix3 0 r d) = attnArr Q K Vv B Kp (ix3 hh (row r) d) := by
  rw [pay_apply]
  show _ = ∑ m : Fin 2048, Cert.Spec.weight (Cert.Spec.score (fun h n d => Q (ix3 h n d)) (fun h n d => K (ix3 h n d)) B
      (fun p => FloatOps.cmpf (F := Ideal) (φ := .bf16) .one (Kp p) (Ideal.ofBits .bf16 0x0000#16)) hh (row r)) m * Vv (ix3 hh m d)
  refine Finset.sum_congr rfl fun m _ => ?_
  rw [h2]
  refine congrArg (fun f => Cert.Spec.weight f m * Vv (ix3 hh m d)) (funext fun m' => ?_)
  unfold blkScore Cert.Spec.score
  rw [h4, h3]
  simp only [h0, h1]

/-! ## The six index maps, decided over the 128 points -/

theorem hz3 : (![0, 0, 0] : Fin 3 → Nat) = fun _ => 0 := funext fun a => by fin_cases a <;> rfl
theorem hz2 : (![0, 0] : Fin 2 → Nat) = fun _ => 0 := funext fun a => by fin_cases a <;> rfl

/-- Point `t` is (row block t / 16, head t % 16). Its output block is (head, row block, 0); the queries' and the bias's blocks
    move with it, the keys' and values' blocks are the head's whole slab, the keep block is the row block's rows. -/
theorem idx_facts : ∀ t : Fin cfg3.N,
    win3_5.index t (0 : Fin 3) = t.val % 16 ∧ win3_5.index t (1 : Fin 3) = t.val / 16 ∧ win3_5.index t (2 : Fin 3) = 0
    ∧ win3_0.index t (0 : Fin 3) = win3_5.index t (0 : Fin 3) ∧ win3_0.index t (1 : Fin 3) = win3_5.index t (1 : Fin 3)
    ∧ win3_0.index t (2 : Fin 3) = 0
    ∧ win3_1.index t (0 : Fin 3) = win3_5.index t (0 : Fin 3) ∧ win3_1.index t (1 : Fin 3) = 0 ∧ win3_1.index t (2 : Fin 3) = 0
    ∧ win3_2.index t (0 : Fin 3) = win3_5.index t (0 : Fin 3) ∧ win3_2.index t (1 : Fin 3) = 0 ∧ win3_2.index t (2 : Fin 3) = 0
    ∧ win3_3.index t (0 : Fin 3) = win3_5.index t (0 : Fin 3) ∧ win3_3.index t (1 : Fin 3) = win3_5.index t (1 : Fin 3)
    ∧ win3_3.index t (2 : Fin 3) = 0
    ∧ win3_4.index t (0 : Fin 2) = win3_5.index t (1 : Fin 3) ∧ win3_4.index t (1 : Fin 2) = 0 :=
  (by decide +kernel : ∀ t : Fin grid3.N, _)

/-! ## What a point writes back -/

section Region
variable (V : (c : Dev nD) → (b : Ref sig .tc) → Buf (Elt Ideal) ((c : Thread nD τ).loc b)) (c : Dev nD)

/-- WHAT POINT `t` WRITES BACK is block `t` of the attention array of the arrays as the region finds them. -/
theorem flushed_eq (t : Fin cfg3.N) :
    (dat3 (F := Ideal) V c).flushed 5 t
      = ((cfg3.win 5).blk t).view.read (Elt Ideal)
          (attnArr (V c main_v7) (V c main_v10) (V c main_v13) (V c main_arg3) (V c main_v19)) := by
  show (cfg3.win 5).cut (grid3.coords t) ((dat3 V c).after 5 t) = _
  rw [after3_5]
  unfold out3_5
  rw [View.canon_unit_zero hz3]
  simp only [View.ld_unit_zero (S := S1x256x64) hz3, View.ld_unit_zero (S := S1x2048x64) hz3,
    View.ld_unit_zero (S := S1x256x2048) hz3, View.ld_unit_zero (S := S256x2048) hz2]
  obtain ⟨e50, e51, e52, e00, e01, e02, e10, e11, e12, e20, e21, e22, e30, e31, e32, e40, e41⟩ := idx_facts t
  have hN : cfg3.N = 128 := N_3
  have ht : t.val < 128 := hN ▸ t.isLt
  have hh16 : win3_5.index t (0 : Fin 3) < 16 := by rw [e50]; omega
  have hq8 : win3_5.index t (1 : Fin 3) < 8 := by rw [e51]; omega
  have key : ∀ y : S1x256x64.Idx,
      k3_pay1 (k3_pay2 (iblk3 V c 0 t) (iblk3 V c 1 t) (iblk3 V c 2 t) (iblk3 V c 3 t) (iblk3 V c 4 t)) y
        = attnArr (V c main_v7) (V c main_v10) (V c main_v13) (V c main_arg3) (V c main_v19)
            (((cfg3.win 5).blk t).view.emb y) := by
    intro y
    obtain ⟨u, r, d, rfl⟩ : ∃ (u : Fin 1) (r : Fin 256) (d : Fin 64), y = ix3 u r d := ⟨y 0, y 1, y 2, eq_ix3 y⟩
    obtain rfl : u = 0 := Subsingleton.elim _ _
    have hemb : ((cfg3.win 5).blk t).view.emb (ix3 (0 : Fin 1) r d)
        = ix3 (⟨win3_5.index t (0 : Fin 3), hh16⟩ : Fin 16)
            (⟨win3_5.index t (1 : Fin 3) * 256 + r.val, by omega⟩ : Fin 2048) d := funext fun a => Fin.ext (by
      match a with
      | ⟨0, _⟩ => show win3_5.index t (0 : Fin 3) * 1 + 1 * 0 = win3_5.index t (0 : Fin 3); omega
      | ⟨1, _⟩ => show win3_5.index t (1 : Fin 3) * 256 + 1 * r.val = win3_5.index t (1 : Fin 3) * 256 + r.val; omega
      | ⟨2, _⟩ => show win3_5.index t (2 : Fin 3) * 64 + 1 * d.val = d.val; omega)
    rw [hemb]
    refine block_eq (V c main_v7) (V c main_v10) (V c main_v13) (V c main_arg3) (V c main_v19)
      (iblk3 V c 0 t) (iblk3 V c 1 t) (iblk3 V c 2 t) (iblk3 V c 3 t) (iblk3 V c 4 t)
      (⟨win3_5.index t (0 : Fin 3), hh16⟩ : Fin 16)
      (fun r => (⟨win3_5.index t (1 : Fin 3) * 256 + r.val, by have := r.isLt; omega⟩ : Fin 2048)) ?_ ?_ ?_ ?_ ?_ r d
    · intro r d
      show V c main_v7 (((cfg3.win 0).blk t).view.emb (ix3 (0 : Fin 1) r d)) = V c main_v7 _
      refine congrArg (V c main_v7) (funext fun a => Fin.ext ?_)
      match a with
      | ⟨0, _⟩ => show win3_0.index t (0 : Fin 3) * 1 + 1 * 0 = win3_5.index t (0 : Fin 3); omega
      | ⟨1, _⟩ => show win3_0.index t (1 : Fin 3) * 256 + 1 * r.val = win3_5.index t (1 : Fin 3) * 256 + r.val; omega
      | ⟨2, _⟩ => show win3_0.index t (2 : Fin 3) * 64 + 1 * d.val = d.val; omega
    · intro m d
      show V c main_v10 (((cfg3.win 1).blk t).view.emb (ix3 (0 : Fin 1) m d)) = V c main_v10 _
      refine congrArg (V c main_v10) (funext fun a => Fin.ext ?_)
      match a with
      | ⟨0, _⟩ => show win3_1.index t (0 : Fin 3) * 1 + 1 * 0 = win3_5.index t (0 : Fin 3); omega
      | ⟨1, _⟩ => show win3_1.index t (1 : Fin 3) * 2048 + 1 * m.val = m.val; omega
      | ⟨2, _⟩ => show win3_1.index t (2 : Fin 3) * 64 + 1 * d.val = d.val; omega
    · intro m d
      show V c main_v13 (((cfg3.win 2).blk t).view.emb (ix3 (0 : Fin 1) m d)) = V c main_v13 _
      refine congrArg (V c main_v13) (funext fun a => Fin.ext ?_)
      match a with
      | ⟨0, _⟩ => show win3_2.index t (0 : Fin 3) * 1 + 1 * 0 = win3_5.index t (0 : Fin 3); omega
      | ⟨1, _⟩ => show win3_2.index t (1 : Fin 3) * 2048 + 1 * m.val = m.val; omega
      | ⟨2, _⟩ => show win3_2.index t (2 : Fin 3) * 64 + 1 * d.val = d.val; omega
    · intro r m
      show V c main_arg3 (((cfg3.win 3).blk t).view.emb (ix3 (0 : Fin 1) r m)) = V c main_arg3 _
      refine congrArg (V c main_arg3) (funext fun a => Fin.ext ?_)
      match a with
      | ⟨0, _⟩ => show win3_3.index t (0 : Fin 3) * 1 + 1 * 0 = win3_5.index t (0 : Fin 3); omega
      | ⟨1, _⟩ => show win3_3.index t (1 : Fin 3) * 256 + 1 * r.val = win3_5.index t (1 : Fin 3) * 256 + r.val; omega
      | ⟨2, _⟩ => show win3_3.index t (2 : Fin 3) * 2048 + 1 * m.val = m.val; omega
    · intro r m
      show V c main_v19 (((cfg3.win 4).blk t).view.emb (ix2 r m)) = V c main_v19 _
      refine congrArg (V c main_v19) (funext fun a => Fin.ext ?_)
      match a with
      | ⟨0, _⟩ => show win3_4.index t (0 : Fin 2) * 256 + 1 * r.val = win3_5.index t (1 : Fin 3) * 256 + r.val; omega
      | ⟨1, _⟩ => show win3_4.index t (1 : Fin 2) * 2048 + 1 * m.val = m.val; omega
  funext j
  exact key j

/-! ## The blocks cover the array -/

/-- An index of the array is in point `t`'s block iff each coordinate is in the block's range on its axis. -/
theorem mem_blk (t : Fin cfg3.N) (i : S16x2048x64.Idx) :
    i ∈ ((cfg3.win 5).blk t).view.set ↔ ∀ a : Fin 3, win3_5.index t a * S1x256x64.size a ≤ (i a).val
      ∧ (i a).val < win3_5.index t a * S1x256x64.size a + S1x256x64.size a := by
  show i ∈ ((View.whole main_v20).slice (win3_5.rect t)).set ↔ _
  rw [View.set_slice_whole, Rect.mem_set_unit]
  exact Iff.rfl

/-- Entry (h, n, d) lies in the block of the point (row block n / 256, head h). -/
theorem cover (i : S16x2048x64.Idx) :
    ∃ t : Fin cfg3.N, (cfg3.win 5).flush t = true ∧ i ∈ ((cfg3.win 5).blk t).view.set := by
  have hN : cfg3.N = 128 := N_3
  have h0 : (i 0).val < 16 := (i 0).isLt
  have h1 : (i 1).val < 2048 := (i 1).isLt
  have h2 : (i 2).val < 64 := (i 2).isLt
  obtain ⟨t, ht⟩ : ∃ t : Fin cfg3.N, t.val = (i 1).val / 256 * 16 + (i 0).val := ⟨⟨_, by rw [hN]; omega⟩, rfl⟩
  obtain ⟨e50, e51, e52, -⟩ := idx_facts t
  refine ⟨t, flush3_5 t, ?_⟩
  rw [mem_blk]
  intro a
  match a with
  | ⟨0, _⟩ =>
    show win3_5.index t (0 : Fin 3) * 1 ≤ (i 0).val ∧ (i 0).val < win3_5.index t (0 : Fin 3) * 1 + 1
    rw [e50, ht]; omega
  | ⟨1, _⟩ =>
    show win3_5.index t (1 : Fin 3) * 256 ≤ (i 1).val ∧ (i 1).val < win3_5.index t (1 : Fin 3) * 256 + 256
    rw [e51, ht]; omega
  | ⟨2, _⟩ =>
    show win3_5.index t (2 : Fin 3) * 64 ≤ (i 2).val ∧ (i 2).val < win3_5.index t (2 : Fin 3) * 64 + 64
    rw [e52]; omega

/-- THE REGION'S OUTPUT ARRAY after its run is the attention array of the arrays as the region finds them. -/
theorem arr3 :
    (dat3 (F := Ideal) V c).arrAt 5 cfg3.N = attnArr (V c main_v7) (V c main_v10) (V c main_v13) (V c main_arg3) (V c main_v19) :=
  (dat3 (F := Ideal) V c).arrAt_eq_of_cover 5
    (attnArr (V c main_v7) (V c main_v10) (V c main_v13) (V c main_arg3) (V c main_v19))
    (fun t _ => flushed_eq V c t) cover

end Region

end Cert.KernelIdeal.AttnValue

end
-- ==== Proof.LibScatterMap.lean ====
/-
  A replacing scatter commutes with any map of the elements.

  `Host.scatter d (fun _ b => b) x idx upd` writes, update by update, the update's element over the operand's at the
  index the update lands on (or drops it when it lands outside). Every step copies elements and computes nothing with
  them, so applying a function `g` to every element of the result is the same scatter of `g ∘ x` with `g ∘ upd`: the
  landing indices depend on the index words alone. (For a combining body such as an addition this holds only for a
  homomorphism `g`; the replacing body needs nothing of `g`.)
-/
import Idealize.ShloMosaic.PureOps.ShapeOps

namespace Idealize.ShloMosaic

/-- The left fold of replacing steps commutes with a map of the elements, from any starting array. -/
theorem Host.scatter_replace_map_fold {α β : Type} {s si u : Shape} {w : Nat} (d : ScatterDims s si u) (g : α → β)
    (idx : IVec si w) (upd : u.Idx → α) (l : List (Fin u.numel)) (x : s.Idx → α) :
    (fun i => g (l.foldl (fun r n =>
        match d.resultIdx? (u.rowMajor.symm n) idx with
        | some i => fun i' => if i' = i then (fun (_ : α) (b : α) => b) (r i) (upd (u.rowMajor.symm n)) else r i'
        | none => r) x i))
      = l.foldl (fun r n =>
        match d.resultIdx? (u.rowMajor.symm n) idx with
        | some i => fun i' => if i' = i then (fun (_ : β) (b : β) => b) (r i) (g (upd (u.rowMajor.symm n))) else r i'
        | none => r) (fun i => g (x i)) := by
  induction l generalizing x with
  | nil => rfl
  | cons n l ih =>
    simp only [List.foldl_cons]
    rw [ih]
    congr 1
    cases d.resultIdx? (u.rowMajor.symm n) idx with
    | none => rfl
    | some i =>
      funext i'
      by_cases h : i' = i
      · simp only [if_pos h]
      · simp only [if_neg h]

/-- A replacing scatter, then `g` on every element, is the replacing scatter of the mapped operand and updates. -/
theorem Host.scatter_replace_map {α β : Type} {s si u : Shape} {w : Nat} (d : ScatterDims s si u) (g : α → β)
    (x : s.Idx → α) (idx : IVec si w) (upd : u.Idx → α) :
    (fun i => g (Host.scatter d (fun _ b => b) x idx upd i))
      = Host.scatter d (fun _ b => b) (fun i => g (x i)) idx (fun j => g (upd j)) :=
  Host.scatter_replace_map_fold d g idx upd (List.finRange u.numel) x

end Idealize.ShloMosaic
-- ==== Proof.KeepMask.lean ====
/-
  The keep mask two ways. One program converts the integer mask to floats, writes it from entry (1, 1) over a matrix of
  float ones, and asks of each entry whether it is not zero; the other compares the integer mask with zero, writes the
  bits from entry (1, 1) over a matrix of true bits, and reads the bit. An integer converted exactly is zero only if the
  integer is, and one is not zero, so the two masks agree entry by entry: the float test commutes with the writing
  (a replacing scatter commutes with any map of the elements).
-/
import proofs.«110870_j26259430048704_2_alg».proof.Proof.LibScatterMap
import Idealize.ShloMosaic.PureOps.Ideal
import Idealize.ShloMosaic.PureOps.Ideal.Laws

noncomputable section

namespace Cert.KeepMask

open Idealize.ShloMosaic

/-- The float test "not zero" against the bf16 zero word. -/
def isOn (x : EReal) : BitVec 1 := FloatOps.cmpf (F := Ideal) (φ := .bf16) .one x (Ideal.ofBits .bf16 0x0000#16)

theorem zero_word : Ideal.ofBits .bf16 0x0000#16 = 0 := by simp [Ideal.ofBits, Ideal.ieee]

theorem one_word : Ideal.ofBits .bf16 0x3F80#16 = ((1 : ℝ) : EReal) := by
  simp [Ideal.ofBits, Ideal.ieee, -EReal.coe_mul]; norm_num

/-- One is on. -/
theorem isOn_one : isOn (Ideal.ofBits .bf16 0x3F80#16) = 1#1 := by
  unfold isOn
  rw [Ideal.cmpf_def, zero_word, one_word]
  simp [Ideal.cmp]

/-- An integer read exactly is on when the integer is not zero. -/
theorem isOn_sitofp (e : BitVec 32) : isOn (FloatOps.sitofp (F := Ideal) .bf16 e) = IntOp.cmpi .ne e 0#32 := by
  unfold isOn
  rw [Ideal.cmpf_def, zero_word]
  show Ideal.cmp .one (((e.toInt : ℝ)) : EReal) 0 = IntOp.cmpi .ne e 0#32
  unfold Ideal.cmp IntOp.cmpi
  by_cases h : e = 0#32
  · subst h; simp
  · have hi : e.toInt ≠ 0 := fun h0 => h (BitVec.eq_of_toInt_eq (by simpa using h0))
    have hr : ((e.toInt : ℝ) : EReal) ≠ 0 := by
      intro h0
      have : (e.toInt : ℝ) = 0 := by exact_mod_cast h0
      exact hi (by exact_mod_cast this)
    have hb : (e != 0#32) = true := by simp [bne_iff_ne, h]
    simp [hr, hb]

/-- The float mask tested entry by entry is the bit mask. -/
theorem mask_eq {s si u : Shape} {w : Nat} (d : ScatterDims s si u) (idx : IVec si w) (ones : s.Idx → EReal) (e : u.Idx → BitVec 32)
    (trues : s.Idx → BitVec 1) (h1 : ∀ i, isOn (ones i) = trues i) :
    (fun p => isOn (Host.scatter d (fun _ b => b) ones idx (fun j => FloatOps.sitofp (F := Ideal) .bf16 (e j)) p))
      = Host.scatter d (fun _ b => b) trues idx (fun j => IntOp.cmpi .ne (e j) 0#32) := by
  rw [Host.scatter_replace_map d isOn]
  congr 1
  · exact funext h1
  · exact funext fun j => isOn_sitofp (e j)

end Cert.KeepMask

end
-- ==== Proof.KernelValue.lean ====
/-
  The whole program's result as the specification of the argument arrays.

  The last stretch moves the attention region's output back row-major; the region's output is attention over the arrays it
  finds; those are the three projections read head-major, the score bias, and the float keep matrix, whose test "not zero"
  is the bit mask (the integer mask's own test, written from entry (1, 1) over trues).
-/
import proofs.«110870_j26259430048704_2_alg».proof.Proof.Projections
import proofs.«110870_j26259430048704_2_alg».proof.Proof.AttnValue
import proofs.«110870_j26259430048704_2_alg».proof.Proof.KeepMask

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem

/-- The keep mask as bits: trues everywhere, and from entry (1, 1) on the integer mask's test "not zero". -/
def keepBits (e : S2047x2047.Idx → BitVec 32) : S2048x2048.Idx → BitVec 1 :=
  Host.scatter scatter_S2048x2048_S2_S2047x2047_01_n_01_0 (fun _ b => b)
    (broadcastInDim S2048x2048 ![] bcast_S_S2048x2048 (constantI S_ 1 1#1))
    (concatenate S2 0 [⟨S1, broadcastInDim S1 ![] bcast_S_S1 (constantI S_ 32 1#32)⟩, ⟨S1, broadcastInDim S1 ![] bcast_S_S1 (constantI S_ 32 1#32)⟩] concatenates_S1_S1_S2_d0)
    (fun j => IntOp.cmpi .ne (e j) 0#32)

variable (m : (ℓ : Loc nD τ sig) → Buf (Elt Ideal) ℓ) (ρ : Dev nD → PrngReg) (c : Dev nD)

/-- The float keep matrix the attention region finds, tested entry by entry, is the bit mask of the integer argument. -/
theorem keep_eq :
    (fun p => FloatOps.cmpf (F := Ideal) (φ := .bf16) .one ((V5 m ρ c main_v19 : S2048x2048.Idx → EReal) p) (Ideal.ofBits .bf16 0x0000#16))
      = keepBits (m ((c : Thread nD τ).loc main_arg4)) := by
  rw [Boundaries.attn_keep, Boundaries.kept_mask]
  exact Cert.KeepMask.mask_eq scatter_S2048x2048_S2_S2047x2047_01_n_01_0 _ _ (m ((c : Thread nD τ).loc main_arg4)) _
    (fun _ => Cert.KeepMask.isOn_one)

theorem queries_entry (h : Fin 16) (n : Fin 2048) (d : Fin 64) :
    (V5 m ρ c main_v7 : S16x2048x64.Idx → EReal) (ix3 h n d)
      = Cert.Spec.lin (m ((c : Thread nD τ).loc main_arg0)) (m ((c : Thread nD τ).loc main_arg5)) (m ((c : Thread nD τ).loc main_arg6)) n (Cert.Spec.col h d) := by
  rw [Boundaries.attn_q]
  exact (heads_apply _ h n d).trans (proj_q_entry m ρ c n (Cert.Spec.col h d))

theorem keys_entry (h : Fin 16) (n : Fin 2048) (d : Fin 64) :
    (V5 m ρ c main_v10 : S16x2048x64.Idx → EReal) (ix3 h n d)
      = Cert.Spec.lin (m ((c : Thread nD τ).loc main_arg1)) (m ((c : Thread nD τ).loc main_arg7)) (m ((c : Thread nD τ).loc main_arg8)) n (Cert.Spec.col h d) := by
  rw [Boundaries.attn_k]
  exact (heads_apply _ h n d).trans (proj_k_entry m ρ c n (Cert.Spec.col h d))

theorem values_entry (h : Fin 16) (n : Fin 2048) (d : Fin 64) :
    (V5 m ρ c main_v13 : S16x2048x64.Idx → EReal) (ix3 h n d)
      = Cert.Spec.lin (m ((c : Thread nD τ).loc main_arg2)) (m ((c : Thread nD τ).loc main_arg9)) (m ((c : Thread nD τ).loc main_arg10)) n (Cert.Spec.col h d) := by
  rw [Boundaries.attn_v]
  exact (heads_apply _ h n d).trans (proj_v_entry m ρ c n (Cert.Spec.col h d))

/-- The result buffer after the run is the specification of the argument arrays. -/
theorem value : W7 m ρ c (Proc.devRef .tc main_v22)
    = Cert.Spec.result (m ((c : Thread nD τ).loc main_arg0)) (m ((c : Thread nD τ).loc main_arg1)) (m ((c : Thread nD τ).loc main_arg2))
        (m ((c : Thread nD τ).loc main_arg3)) (keepBits (m ((c : Thread nD τ).loc main_arg4)))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  funext i
  obtain ⟨n, j, rfl⟩ : ∃ (n : Fin 2048) (j : Fin 1024), i = ix2 n j := ⟨i 0, i 1, eq_ix2 i⟩
  rw [Boundaries.last]
  refine (unheads_apply _ n j).trans ?_
  rw [Boundaries.attn_out, AttnValue.arr3]
  unfold AttnValue.attnArr Cert.Spec.result
  have hq : (fun (h : Fin 16) (n : Fin 2048) (d : Fin 64) => (V5 m ρ c main_v7 : S16x2048x64.Idx → EReal) (ix3 h n d))
      = fun h n d => Cert.Spec.lin (m ((c : Thread nD τ).loc main_arg0)) (m ((c : Thread nD τ).loc main_arg5)) (m ((c : Thread nD τ).loc main_arg6)) n (Cert.Spec.col h d) :=
    funext fun h => funext fun n => funext fun d => queries_entry m ρ c h n d
  have hk : (fun (h : Fin 16) (n : Fin 2048) (d : Fin 64) => (V5 m ρ c main_v10 : S16x2048x64.Idx → EReal) (ix3 h n d))
      = fun h n d => Cert.Spec.lin (m ((c : Thread nD τ).loc main_arg1)) (m ((c : Thread nD τ).loc main_arg7)) (m ((c : Thread nD τ).loc main_arg8)) n (Cert.Spec.col h d) :=
    funext fun h => funext fun n => funext fun d => keys_entry m ρ c h n d
  have hv : (fun (h : Fin 16) (n : Fin 2048) (d : Fin 64) => (V5 m ρ c main_v13 : S16x2048x64.Idx → EReal) (ix3 h n d))
      = fun h n d => Cert.Spec.lin (m ((c : Thread nD τ).loc main_arg2)) (m ((c : Thread nD τ).loc main_arg9)) (m ((c : Thread nD τ).loc main_arg10)) n (Cert.Spec.col h d) :=
    funext fun h => funext fun n => funext fun d => values_entry m ρ c h n d
  have hb : (V5 m ρ c main_arg3 : S16x2048x2048.Idx → EReal) = m ((c : Thread nD τ).loc main_arg3) :=
    (Boundaries.attn_bias m ρ c).trans (Boundaries.kept_bias m ρ c)
  show Cert.Spec.attend _ _ _ _ _ (⟨j.val / 64, by omega⟩ : Fin 16) n (⟨j.val % 64, Nat.mod_lt _ (by decide)⟩ : Fin 64)
    = Cert.Spec.attend _ _ _ _ _ (⟨j.val / 64, by omega⟩ : Fin 16) n (⟨j.val % 64, Nat.mod_lt _ (by decide)⟩ : Fin 64)
  rw [hq, hk, hv, hb]
  exact congrArg (fun M => Cert.Spec.attend _ _ _ _ M _ _ _) (keep_eq m ρ c)

end Cert.KernelIdeal.Whole

end
-- ==== Proof.LibTypedRef.lean ====
/-
  Typed references and the transport of contents along their type equation.

  A function the tracer outlines (relu, clip, where, …) is printed once over typed references: a reference to a buffer
  together with the equation "this buffer's type is the value's type". Every operation of such a function reads its operands
  and writes its result through that equation: contents at the value's type are transported to contents of the buffer and
  back. For a literal reference the equation holds by computation and the transport is the identity, but a proof should not
  ask Lean to compute that on a full-size program: stated once over a VARIABLE typed reference, where the equation can be
  eliminated, the three facts below say that the transport changes nothing, and they apply to any literal reference by
  instantiation. With them a goal left by reading an outlined function's operations,
      y.toBuf (f (a.ofBuf A) (b.ofBuf (b.toBuf B))) = g,
  becomes `f A' B = g` by `eq_of_heq ((toBuf_heq _ _).trans (heq_of_eq ?_))`, `rw [ofBuf_toBuf]`, and
  `eq_of_heq ((ofBuf_heq _ _).trans (heq_of_eq hA))` for a known `hA : A = A'`.
-/
import Idealize.ShloMosaic.Lib.StableHlo

noncomputable section

namespace Cert.Lib.TypedRef

open Idealize.ShloMosaic Idealize.ShloMosaic.StableHlo

variable {sig : RefSig} {Val : EltTy → Type} {T : BufTy}

/-- Contents written through a typed reference are, up to the types' equation, the contents given. -/
theorem toBuf_heq (x : TRef sig T) (v : T.Contents Val) : HEq (x.toBuf v) v := by
  obtain ⟨r, h, h1, h2⟩ := x
  subst h
  rfl

/-- Contents read through a typed reference are, up to the types' equation, the buffer's contents. -/
theorem ofBuf_heq (x : TRef sig T) (v : x.ref.ty.Contents Val) : HEq (x.ofBuf v) v := by
  obtain ⟨r, h, h1, h2⟩ := x
  subst h
  rfl

/-- Reading back what was written through the same typed reference gives the contents written. -/
theorem ofBuf_toBuf (x : TRef sig T) (v : T.Contents Val) : x.ofBuf (x.toBuf v) = v :=
  eq_of_heq ((ofBuf_heq x _).trans (toBuf_heq x v))

/-- Writing what was read through the same typed reference gives the buffer's contents. -/
theorem toBuf_ofBuf (x : TRef sig T) (v : x.ref.ty.Contents Val) : x.toBuf (x.ofBuf v) = v :=
  eq_of_heq ((toBuf_heq x _).trans (ofBuf_heq x v))

end Cert.Lib.TypedRef

end
-- ==== Proof.RefProj.lean ====
/-
  The reference's three linear layers, entry by entry. Each of q, k, v is multiplied by its weight matrix, the bias vector
  is laid under every row and added; the 1024 columns are then read as 16 heads of 64 lanes and the head axis is
  brought to the front, so the entry (head h, row n, lane d) is the layer's entry (n, 64·h + d). The queries are further
  multiplied by the constant 1/8, kept as its 32-bit word.
-/
import proofs.«110870_j26259430048704_2_alg».proof.Proof.RefRead
import proofs.«110870_j26259430048704_2_alg».proof.Proof.Spec
import Idealize.ShloMosaic.PureOps.Ideal.Laws
import Idealize.ShloMosaic.Lib.ValueIdx
import Idealize.ShloMosaic.Lib.Pipeline.Value

noncomputable section

namespace Cert.ReferenceIdeal.RefValue
open Cert.ReferenceIdeal Cert.ReferenceIdeal.Gen Cert.ReferenceIdeal.ReadP Idealize.ShloMosaic Idealize.ShloMosaic.TcCoe Idealize.ShloMosaic.ValueIdx Idealize.SL.Sem

/-- The queries' projection at (n, j): the row of the activations against the weights' column, plus the bias entry. -/
theorem lin_queries (x0 : (⟨S2048x1024, .f32⟩ : BufTy).Contents (Elt Ideal)) (x5 : (⟨S1024x1024, .f32⟩ : BufTy).Contents (Elt Ideal)) (x6 : (⟨S1024, .f32⟩ : BufTy).Contents (Elt Ideal)) (n : Fin 2048) (j : Fin 1024) :
    val_main_v3 (F := Ideal) x0 x5 x6 (ix2 n j) = Cert.Spec.lin x0 x5 x6 n j := by
  rw [val_main_v3_apply, val_main_v0_apply, val_main_v2_apply, val_main_v1_apply]
  have el : ∀ k : Fin 1024, lidx_main_v0 (ix2 n j) k = ix2 n k := fun k => funext fun a => by
    match a with | ⟨0, _⟩ => rfl | ⟨1, _⟩ => rfl
  have er : ∀ k : Fin 1024, ridx_main_v0 (ix2 n j) k = ix2 k j := fun k => funext fun a => by
    match a with | ⟨0, _⟩ => rfl | ⟨1, _⟩ => rfl
  have eb : idx_main_v1 (idx_main_v2 (ix2 n j)) = ix1 j := funext fun a => by
    match a with | ⟨0, _⟩ => rfl
  simp only [el, er, eb]
  rfl

/-- The queries' projection split into heads, at (head h, row n, lane d): the projection's entry (n, 64·h + d). -/
theorem heads_queries (x0 : (⟨S2048x1024, .f32⟩ : BufTy).Contents (Elt Ideal)) (x5 : (⟨S1024x1024, .f32⟩ : BufTy).Contents (Elt Ideal)) (x6 : (⟨S1024, .f32⟩ : BufTy).Contents (Elt Ideal)) (h : Fin 16) (n : Fin 2048) (d : Fin 64) :
    val_main_v5 (F := Ideal) x0 x5 x6 (ix3 h n d) = Cert.Spec.lin x0 x5 x6 n (Cert.Spec.col h d) := by
  rw [val_main_v5_apply, val_main_v4_apply]
  have e : idx_main_v4 (idx_main_v5 (ix3 h n d)) = ix2 n (Cert.Spec.col h d) := funext fun a => Fin.ext (by
    have hh := h.isLt; have hn := n.isLt; have hd := d.isLt
    match a with
    | ⟨0, _⟩ => show ((n.val * 16 + h.val) * 64 + d.val) / 1024 = n.val; omega
    | ⟨1, _⟩ => show ((n.val * 16 + h.val) * 64 + d.val) % 1024 = h.val * 64 + d.val; omega)
  rw [e, lin_queries]

/-- The keys' projection at (n, j): the row of the activations against the weights' column, plus the bias entry. -/
theorem lin_keys (x1 : (⟨S2048x1024, .f32⟩ : BufTy).Contents (Elt Ideal)) (x7 : (⟨S1024x1024, .f32⟩ : BufTy).Contents (Elt Ideal)) (x8 : (⟨S1024, .f32⟩ : BufTy).Contents (Elt Ideal)) (n : Fin 2048) (j : Fin 1024) :
    val_main_v11 (F := Ideal) x1 x7 x8 (ix2 n j) = Cert.Spec.lin x1 x7 x8 n j := by
  rw [val_main_v11_apply, val_main_v8_apply, val_main_v10_apply, val_main_v9_apply]
  have el : ∀ k : Fin 1024, lidx_main_v8 (ix2 n j) k = ix2 n k := fun k => funext fun a => by
    match a with | ⟨0, _⟩ => rfl | ⟨1, _⟩ => rfl
  have er : ∀ k : Fin 1024, ridx_main_v8 (ix2 n j) k = ix2 k j := fun k => funext fun a => by
    match a with | ⟨0, _⟩ => rfl | ⟨1, _⟩ => rfl
  have eb : idx_main_v9 (idx_main_v10 (ix2 n j)) = ix1 j := funext fun a => by
    match a with | ⟨0, _⟩ => rfl
  simp only [el, er, eb]
  rfl

/-- The keys' projection split into heads, at (head h, row n, lane d): the projection's entry (n, 64·h + d). -/
theorem heads_keys (x1 : (⟨S2048x1024, .f32⟩ : BufTy).Contents (Elt Ideal)) (x7 : (⟨S1024x1024, .f32⟩ : BufTy).Contents (Elt Ideal)) (x8 : (⟨S1024, .f32⟩ : BufTy).Contents (Elt Ideal)) (h : Fin 16) (n : Fin 2048) (d : Fin 64) :
    val_main_v13 (F := Ideal) x1 x7 x8 (ix3 h n d) = Cert.Spec.lin x1 x7 x8 n (Cert.Spec.col h d) := by
  rw [val_main_v13_apply, val_main_v12_apply]
  have e : idx_main_v12 (idx_main_v13 (ix3 h n d)) = ix2 n (Cert.Spec.col h d) := funext fun a => Fin.ext (by
    have hh := h.isLt; have hn := n.isLt; have hd := d.isLt
    match a with
    | ⟨0, _⟩ => show ((n.val * 16 + h.val) * 64 + d.val) / 1024 = n.val; omega
    | ⟨1, _⟩ => show ((n.val * 16 + h.val) * 64 + d.val) % 1024 = h.val * 64 + d.val; omega)
  rw [e, lin_keys]

/-- The values' projection at (n, j): the row of the activations against the weights' column, plus the bias entry. -/
theorem lin_values (x2 : (⟨S2048x1024, .f32⟩ : BufTy).Contents (Elt Ideal)) (x9 : (⟨S1024x1024, .f32⟩ : BufTy).Contents (Elt Ideal)) (x10 : (⟨S1024, .f32⟩ : BufTy).Contents (Elt Ideal)) (n : Fin 2048) (j : Fin 1024) :
    val_main_v17 (F := Ideal) x2 x9 x10 (ix2 n j) = Cert.Spec.lin x2 x9 x10 n j := by
  rw [val_main_v17_apply, val_main_v14_apply, val_main_v16_apply, val_main_v15_apply]
  have el : ∀ k : Fin 1024, lidx_main_v14 (ix2 n j) k = ix2 n k := fun k => funext fun a => by
    match a with | ⟨0, _⟩ => rfl | ⟨1, _⟩ => rfl
  have er : ∀ k : Fin 1024, ridx_main_v14 (ix2 n j) k = ix2 k j := fun k => funext fun a => by
    match a with | ⟨0, _⟩ => rfl | ⟨1, _⟩ => rfl
  have eb : idx_main_v15 (idx_main_v16 (ix2 n j)) = ix1 j := funext fun a => by
    match a with | ⟨0, _⟩ => rfl
  simp only [el, er, eb]
  rfl

/-- The values' projection split into heads, at (head h, row n, lane d): the projection's entry (n, 64·h + d). -/
theorem heads_values (x2 : (⟨S2048x1024, .f32⟩ : BufTy).Contents (Elt Ideal)) (x9 : (⟨S1024x1024, .f32⟩ : BufTy).Contents (Elt Ideal)) (x10 : (⟨S1024, .f32⟩ : BufTy).Contents (Elt Ideal)) (h : Fin 16) (n : Fin 2048) (d : Fin 64) :
    val_main_v19 (F := Ideal) x2 x9 x10 (ix3 h n d) = Cert.Spec.lin x2 x9 x10 n (Cert.Spec.col h d) := by
  rw [val_main_v19_apply, val_main_v18_apply]
  have e : idx_main_v18 (idx_main_v19 (ix3 h n d)) = ix2 n (Cert.Spec.col h d) := funext fun a => Fin.ext (by
    have hh := h.isLt; have hn := n.isLt; have hd := d.isLt
    match a with
    | ⟨0, _⟩ => show ((n.val * 16 + h.val) * 64 + d.val) / 1024 = n.val; omega
    | ⟨1, _⟩ => show ((n.val * 16 + h.val) * 64 + d.val) % 1024 = h.val * 64 + d.val; omega)
  rw [e, lin_values]

/-- The scaled queries at (head h, row n, lane d): the queries' entry (n, 64·h + d) times the word of 1/8. -/
theorem scaled_queries (x0 : (⟨S2048x1024, .f32⟩ : BufTy).Contents (Elt Ideal)) (x5 : (⟨S1024x1024, .f32⟩ : BufTy).Contents (Elt Ideal)) (x6 : (⟨S1024, .f32⟩ : BufTy).Contents (Elt Ideal)) (h : Fin 16) (n : Fin 2048) (d : Fin 64) :
    val_main_v7 (F := Ideal) x0 x5 x6 (ix3 h n d)
      = Cert.Spec.lin x0 x5 x6 n (Cert.Spec.col h d) * Ideal.ofBits .f32 0x3E000000#32 := by
  rw [val_main_v7_apply, heads_queries, val_main_v6_apply, val_main_cst_apply]
  rfl

end Cert.ReferenceIdeal.RefValue
end
-- ==== Proof.RefScore.lean ====
/-
  The reference's masked scores. For head h, query row n and key row m: the scaled queries' row against the keys' row
  over the 64 lanes, plus the score bias, kept where the mask is on and replaced by zero where it is off. The mask is
  one 2048 × 2048 matrix of bits, the same for every head, and is not opened here.
-/
import proofs.«110870_j26259430048704_2_alg».proof.Proof.RefRead
import proofs.«110870_j26259430048704_2_alg».proof.Proof.RefProj
import proofs.«110870_j26259430048704_2_alg».proof.Proof.Spec
import Idealize.ShloMosaic.PureOps.Ideal.Laws
import Idealize.ShloMosaic.Lib.ValueIdx
import Idealize.ShloMosaic.Lib.Pipeline.Value

noncomputable section

namespace Cert.ReferenceIdeal.RefValue
open Cert.ReferenceIdeal Cert.ReferenceIdeal.Gen Cert.ReferenceIdeal.ReadP Idealize.ShloMosaic Idealize.ShloMosaic.TcCoe Idealize.ShloMosaic.ValueIdx Idealize.SL.Sem

/-- The masked score at (h, n, m) is the specification's. -/
theorem score_eq (x0 x1 : (⟨S2048x1024, .f32⟩ : BufTy).Contents (Elt Ideal)) (x3 : (⟨S16x2048x2048, .f32⟩ : BufTy).Contents (Elt Ideal)) (x4 : (⟨S2047x2047, .i32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (h : Fin 16) (n m : Fin 2048) :
    val_main_v30 (F := Ideal) x0 x1 x3 x4 x5 x6 x7 x8 (ix3 h n m) = Cert.Spec.score (fun h n d => Cert.Spec.lin x0 x5 x6 n (Cert.Spec.col h d)) (fun h n d => Cert.Spec.lin x1 x7 x8 n (Cert.Spec.col h d)) x3 (val_main_v28 (F := Ideal) x4) h n m := by
  rw [val_main_v30_apply, val_main_call0_v0_apply, val_main_v29_apply, val_main_v21_apply, val_main_v20_apply,
    val_main_call0_v1_apply, val_main_cst_3_apply]
  have em : idx_main_v29 (idx_main_call0_v0 (ix3 h n m)) = ix2 n m := funext fun a => by
    match a with | ⟨0, _⟩ => rfl | ⟨1, _⟩ => rfl
  have el : ∀ k : Fin 64, lidx_main_v20 (ix3 h n m) k = ix3 h n k := fun k => funext fun a => by
    match a with | ⟨0, _⟩ => rfl | ⟨1, _⟩ => rfl | ⟨2, _⟩ => rfl
  have er : ∀ k : Fin 64, ridx_main_v20 (ix3 h n m) k = ix3 h m k := fun k => funext fun a => by
    match a with | ⟨0, _⟩ => rfl | ⟨1, _⟩ => rfl | ⟨2, _⟩ => rfl
  simp only [em, el, er, scaled_queries, heads_keys]
  rfl

end Cert.ReferenceIdeal.RefValue
end
-- ==== Proof.RefSoftmax.lean ====
/-
  The reference's softmax over each row of scores. The row's shift is its maximum, folded from −∞ and taken once more
  against −∞; each score less the shift is exponentiated; the row's sum of these, started from zero, divides each of
  them. On the extended reals each step is the exact operation, so the row's weights are the specification's.
-/
import proofs.«110870_j26259430048704_2_alg».proof.Proof.RefRead
import proofs.«110870_j26259430048704_2_alg».proof.Proof.RefScore
import proofs.«110870_j26259430048704_2_alg».proof.Proof.Spec
import Idealize.ShloMosaic.PureOps.Ideal.Laws
import Idealize.ShloMosaic.Lib.ValueIdx
import Idealize.ShloMosaic.Lib.Pipeline.Value

noncomputable section

namespace Cert.ReferenceIdeal.RefValue
open Cert.ReferenceIdeal Cert.ReferenceIdeal.Gen Cert.ReferenceIdeal.ReadP Idealize.ShloMosaic Idealize.ShloMosaic.TcCoe Idealize.ShloMosaic.ValueIdx Idealize.SL.Sem

/-- A maximum folded along the last axis of a 16 × 2048 × 2048 array, from −∞, read at (h, n): the fold over the 2048
    entries (h, n, ·). -/
theorem rowFold_var (y : S16x2048x2048.Idx → EReal) (h : Fin 16) (n : Fin 2048) :
    Host.reduce (FloatOps.maximumf (F := Ideal) (φ := .f32)) y (val_main_cst_4 (F := Ideal)) reducesTo_S16x2048x2048_S16x2048_d2 h_S_ (ix2 h n)
      = (Finset.univ : Finset (Fin 2048)).fold max (Ideal.ofBits .f32 0xFF800000#32) (fun m => y (ix3 h n m)) := by
  have hr : S16x2048x2048.Reduces [2] S16x2048 := by decide
  refine (Host.reduce_eq_fold_single (FloatOps.maximumf (F := Ideal) (φ := .f32)) y (val_main_cst_4 (F := Ideal))
    reducesTo_S16x2048x2048_S16x2048_d2 hr h_S_ (ix2 h n)).trans ?_
  have e : y ∘ hr.lift (ix2 h n) = fun m => y (ix3 h n m) := funext fun m => congrArg y (funext fun c => Fin.ext (by
    rw [hr.lift_val]
    match c with
    | ⟨0, _⟩ => rfl
    | ⟨1, _⟩ => rfl
    | ⟨2, _⟩ => rfl))
  rw [e]
  rfl

/-- The fold of the maximum along the row (h, n) of the masked scores, from −∞. -/
theorem rowFold_eq (x0 x1 : (⟨S2048x1024, .f32⟩ : BufTy).Contents (Elt Ideal)) (x3 : (⟨S16x2048x2048, .f32⟩ : BufTy).Contents (Elt Ideal)) (x4 : (⟨S2047x2047, .i32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (h : Fin 16) (n : Fin 2048) :
    val_main_v31 (F := Ideal) x0 x1 x3 x4 x5 x6 x7 x8 (ix2 h n)
      = (Finset.univ : Finset (Fin 2048)).fold max (Ideal.ofBits .f32 0xFF800000#32) (Cert.Spec.score (fun h n d => Cert.Spec.lin x0 x5 x6 n (Cert.Spec.col h d)) (fun h n d => Cert.Spec.lin x1 x7 x8 n (Cert.Spec.col h d)) x3 (val_main_v28 (F := Ideal) x4) h n) := by
  unfold val_main_v31
  refine (rowFold_var (val_main_v30 (F := Ideal) x0 x1 x3 x4 x5 x6 x7 x8) h n).trans ?_
  exact congrArg (fun s => (Finset.univ : Finset (Fin 2048)).fold max (Ideal.ofBits .f32 0xFF800000#32) s)
    (funext fun m => score_eq x0 x1 x3 x4 x5 x6 x7 x8 h n m)

/-- The row's shift: the folded maximum, once more against −∞. -/
theorem rowMax_eq (x0 x1 : (⟨S2048x1024, .f32⟩ : BufTy).Contents (Elt Ideal)) (x3 : (⟨S16x2048x2048, .f32⟩ : BufTy).Contents (Elt Ideal)) (x4 : (⟨S2047x2047, .i32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (h : Fin 16) (n : Fin 2048) :
    val_main_v33 (F := Ideal) x0 x1 x3 x4 x5 x6 x7 x8 (ix2 h n) = Cert.Spec.rowMax (Cert.Spec.score (fun h n d => Cert.Spec.lin x0 x5 x6 n (Cert.Spec.col h d)) (fun h n d => Cert.Spec.lin x1 x7 x8 n (Cert.Spec.col h d)) x3 (val_main_v28 (F := Ideal) x4) h n) := by
  rw [val_main_v33_apply, val_main_v32_apply, val_main_cst_5_apply, rowFold_eq]
  rfl

/-- A shifted score, exponentiated. -/
theorem expo_eq (x0 x1 : (⟨S2048x1024, .f32⟩ : BufTy).Contents (Elt Ideal)) (x3 : (⟨S16x2048x2048, .f32⟩ : BufTy).Contents (Elt Ideal)) (x4 : (⟨S2047x2047, .i32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (h : Fin 16) (n m : Fin 2048) :
    val_main_v37 (F := Ideal) x0 x1 x3 x4 x5 x6 x7 x8 (ix3 h n m)
      = Ideal.exp (Cert.Spec.score (fun h n d => Cert.Spec.lin x0 x5 x6 n (Cert.Spec.col h d)) (fun h n d => Cert.Spec.lin x1 x7 x8 n (Cert.Spec.col h d)) x3 (val_main_v28 (F := Ideal) x4) h n m - Cert.Spec.rowMax (Cert.Spec.score (fun h n d => Cert.Spec.lin x0 x5 x6 n (Cert.Spec.col h d)) (fun h n d => Cert.Spec.lin x1 x7 x8 n (Cert.Spec.col h d)) x3 (val_main_v28 (F := Ideal) x4) h n)) := by
  rw [val_main_v37_apply, val_main_v36_apply, score_eq, val_main_v35_apply, val_main_v34_apply]
  have e : idx_main_v34 (idx_main_v35 (ix3 h n m)) = ix2 h n := funext fun a => by
    match a with | ⟨0, _⟩ => rfl | ⟨1, _⟩ => rfl
  rw [e, rowMax_eq, Ideal.hostUnary_exp_def, Ideal.subf_def]

/-- The row's sum of the exponentials, started from zero. -/
theorem rowSum_eq (x0 x1 : (⟨S2048x1024, .f32⟩ : BufTy).Contents (Elt Ideal)) (x3 : (⟨S16x2048x2048, .f32⟩ : BufTy).Contents (Elt Ideal)) (x4 : (⟨S2047x2047, .i32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (h : Fin 16) (n : Fin 2048) :
    val_main_v38 (F := Ideal) x0 x1 x3 x4 x5 x6 x7 x8 (ix2 h n)
      = ∑ m' : Fin 2048, Ideal.exp (Cert.Spec.score (fun h n d => Cert.Spec.lin x0 x5 x6 n (Cert.Spec.col h d)) (fun h n d => Cert.Spec.lin x1 x7 x8 n (Cert.Spec.col h d)) x3 (val_main_v28 (F := Ideal) x4) h n m' - Cert.Spec.rowMax (Cert.Spec.score (fun h n d => Cert.Spec.lin x0 x5 x6 n (Cert.Spec.col h d)) (fun h n d => Cert.Spec.lin x1 x7 x8 n (Cert.Spec.col h d)) x3 (val_main_v28 (F := Ideal) x4) h n)) := by
  rw [val_main_v38_apply, val_main_cst_6_apply]
  have e : ∀ k : Fin 2048, idx_main_v38 (ix2 h n) k = ix3 h n k := fun k => funext fun a => by
    match a with | ⟨0, _⟩ => rfl | ⟨1, _⟩ => rfl | ⟨2, _⟩ => rfl
  simp only [e, expo_eq]
  show Ideal.ofBits .f32 0x00000000#32 + _ = _
  rw [Ideal.ofBits_zero_f32, zero_add]

/-- The softmax weight at (h, n, m) is the specification's weight of the row's scores at m. -/
theorem weight_eq (x0 x1 : (⟨S2048x1024, .f32⟩ : BufTy).Contents (Elt Ideal)) (x3 : (⟨S16x2048x2048, .f32⟩ : BufTy).Contents (Elt Ideal)) (x4 : (⟨S2047x2047, .i32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (h : Fin 16) (n m : Fin 2048) :
    val_main_v41 (F := Ideal) x0 x1 x3 x4 x5 x6 x7 x8 (ix3 h n m) = Cert.Spec.weight (Cert.Spec.score (fun h n d => Cert.Spec.lin x0 x5 x6 n (Cert.Spec.col h d)) (fun h n d => Cert.Spec.lin x1 x7 x8 n (Cert.Spec.col h d)) x3 (val_main_v28 (F := Ideal) x4) h n) m := by
  rw [val_main_v41_apply, expo_eq, val_main_v40_apply, val_main_v39_apply]
  have e : idx_main_v39 (idx_main_v40 (ix3 h n m)) = ix2 h n := funext fun a => by
    match a with | ⟨0, _⟩ => rfl | ⟨1, _⟩ => rfl
  rw [e, rowSum_eq, Ideal.hostDivf_def]
  unfold Cert.Spec.weight
  rfl

end Cert.ReferenceIdeal.RefValue
end
-- ==== Proof.RefValue.lean ====
/-
  The reference's result. Each head's softmax weights are multiplied against that head's values over the key rows;
  the head axis is then brought back behind the rows and the 16 heads of 64 lanes are read as 1024 columns, so the
  result's entry (n, j) is attention's entry (head j / 64, row n, lane j % 64): the specification's `result`.
-/
import proofs.«110870_j26259430048704_2_alg».proof.Proof.RefRead
import proofs.«110870_j26259430048704_2_alg».proof.Proof.RefSoftmax
import proofs.«110870_j26259430048704_2_alg».proof.Proof.Spec
import Idealize.ShloMosaic.PureOps.Ideal.Laws
import Idealize.ShloMosaic.Lib.ValueIdx
import Idealize.ShloMosaic.Lib.Pipeline.Value

noncomputable section

namespace Cert.ReferenceIdeal.RefValue
open Cert.ReferenceIdeal Cert.ReferenceIdeal.Gen Cert.ReferenceIdeal.ReadP Idealize.ShloMosaic Idealize.ShloMosaic.TcCoe Idealize.ShloMosaic.ValueIdx Idealize.SL.Sem

/-- Attention's entry (h, n, d): the row's weights against the values' lane. -/
theorem attend_eq (x0 x1 x2 : (⟨S2048x1024, .f32⟩ : BufTy).Contents (Elt Ideal)) (x3 : (⟨S16x2048x2048, .f32⟩ : BufTy).Contents (Elt Ideal))
    (x4 : (⟨S2047x2047, .i32⟩ : BufTy).Contents (Elt Ideal)) (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal))
    (x9 : (⟨S1024x1024, .f32⟩ : BufTy).Contents (Elt Ideal)) (x10 : (⟨S1024, .f32⟩ : BufTy).Contents (Elt Ideal)) (h : Fin 16) (n : Fin 2048) (d : Fin 64) :
    val_main_v42 (F := Ideal) x0 x1 x2 x3 x4 x5 x6 x7 x8 x9 x10 (ix3 h n d)
      = Cert.Spec.attend (fun h n d => Cert.Spec.lin x0 x5 x6 n (Cert.Spec.col h d)) (fun h n d => Cert.Spec.lin x1 x7 x8 n (Cert.Spec.col h d)) (fun h n d => Cert.Spec.lin x2 x9 x10 n (Cert.Spec.col h d)) x3 (val_main_v28 (F := Ideal) x4) h n d := by
  rw [val_main_v42_apply]
  have el : ∀ k : Fin 2048, lidx_main_v42 (ix3 h n d) k = ix3 h n k := fun k => funext fun a => by
    match a with | ⟨0, _⟩ => rfl | ⟨1, _⟩ => rfl | ⟨2, _⟩ => rfl
  have er : ∀ k : Fin 2048, ridx_main_v42 (ix3 h n d) k = ix3 h k d := fun k => funext fun a => by
    match a with | ⟨0, _⟩ => rfl | ⟨1, _⟩ => rfl | ⟨2, _⟩ => rfl
  simp only [el, er, weight_eq, heads_values]
  unfold Cert.Spec.attend
  rfl

theorem result_eq (x0 x1 x2 : (⟨S2048x1024, .f32⟩ : BufTy).Contents (Elt Ideal)) (x3 : (⟨S16x2048x2048, .f32⟩ : BufTy).Contents (Elt Ideal))
    (x4 : (⟨S2047x2047, .i32⟩ : BufTy).Contents (Elt Ideal)) (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal))
    (x9 : (⟨S1024x1024, .f32⟩ : BufTy).Contents (Elt Ideal)) (x10 : (⟨S1024, .f32⟩ : BufTy).Contents (Elt Ideal)) :
    Cert.ReferenceIdeal.ReadP.val_main_v44 (F := Ideal) x0 x1 x2 x3 x4 x5 x6 x7 x8 x9 x10
      = Cert.Spec.result x0 x1 x2 x3 (Cert.ReferenceIdeal.ReadP.val_main_v28 (F := Ideal) x4) x5 x6 x7 x8 x9 x10 := by
  funext i
  obtain ⟨n, j, rfl⟩ : ∃ (n : Fin 2048) (j : Fin 1024), i = ix2 n j := ⟨i 0, i 1, eq_ix2 i⟩
  rw [val_main_v44_apply, val_main_v43_apply]
  have hn := n.isLt
  have hj := j.isLt
  have e : idx_main_v43 (idx_main_v44 (ix2 n j))
      = ix3 (⟨j.val / 64, by omega⟩ : Fin 16) n (⟨j.val % 64, Nat.mod_lt _ (by decide)⟩ : Fin 64) := funext fun a => Fin.ext (by
    match a with
    | ⟨0, _⟩ => show (n.val * 1024 + j.val) / 64 % 16 = j.val / 64; omega
    | ⟨1, _⟩ => show (n.val * 1024 + j.val) / 1024 = n.val; omega
    | ⟨2, _⟩ => show (n.val * 1024 + j.val) % 64 = j.val % 64; omega)
  rw [e, attend_eq]
  rfl

end Cert.ReferenceIdeal.RefValue
end
-- ==== Proof.lean ====
/-
  The certificate of a multi-head attention kernel against its plain reference, at the exact (extended-real) reading of
  both programs.

  The kernel program is four grid regions among stretches of whole-array operations: three linear projections x·W + b
  (four row blocks of 512 each), a split of the 1024 columns into 16 heads of 64 lanes, and an attention region over
  (row block of 256) × (head) that scales the queries by 1/8, takes the scores against all 2048 keys, adds the bias,
  zeroes the scores where the keep mask is off, takes the row softmax (shifted by the row maximum) and multiplies by the
  values; the reference does the same on whole arrays. Read exactly, narrowing to bf16 is the identity, a matrix product
  into a zero accumulator is the plain sum of products, and a lane reduction is the sum or the maximum over the lane index,
  so both programs compute, entry by entry, the one function `Cert.Spec.result` of the argument arrays:

  * the kernel side: the run with its result named (`WholeRun`), the contents at the segment boundaries (`Boundaries`),
    each projection region's array (`ProjValue`) and the attention region's array (`AttnValue`) from what the grid points
    write back, joined in `KernelValue`;
  * the reference side: its run (`RefRun`), its operations read at an index (`RefRead`), and the result as the same
    function (`RefValue`);
  * the keep mask: one program tests a float matrix (ones, overwritten from entry (1, 1) by the integer mask converted
    exactly) against zero, the other writes the integer mask's own test over trues; a replacing scatter commutes with
    any map of the elements (`LibScatterMap`, `KeepMask`), so the masks agree.

  No law of the extended reals beyond these readings is needed, and the precondition (finite inputs) is never opened.
  The frames of the two kernel programs are the generated frame certificates; the idealization rewrote no operation.
-/
import proofs.«110870_j26259430048704_2_alg».proof.Defs
import proofs.«110870_j26259430048704_2_alg».proof.Proof.Gen.Kernel
import proofs.«110870_j26259430048704_2_alg».proof.Proof.Gen.Kernel.Skeleton
import proofs.«110870_j26259430048704_2_alg».proof.Proof.Gen.Kernel.Launch
import proofs.«110870_j26259430048704_2_alg».proof.Proof.Gen.Kernel.Points
import proofs.«110870_j26259430048704_2_alg».proof.Proof.Gen.Kernel.Frame
import proofs.«110870_j26259430048704_2_alg».proof.Proof.Gen.KernelIdeal
import proofs.«110870_j26259430048704_2_alg».proof.Proof.Gen.KernelIdeal.Skeleton
import proofs.«110870_j26259430048704_2_alg».proof.Proof.Gen.KernelIdeal.Launch
import proofs.«110870_j26259430048704_2_alg».proof.Proof.Gen.KernelIdeal.Points
import proofs.«110870_j26259430048704_2_alg».proof.Proof.Gen.KernelIdeal.Frame
import proofs.«110870_j26259430048704_2_alg».proof.Proof.Gen.ReferenceIdeal
import proofs.«110870_j26259430048704_2_alg».proof.Proof.Gen.Pre_finite_inputs
import proofs.«110870_j26259430048704_2_alg».proof.Proof.WholeRun
import proofs.«110870_j26259430048704_2_alg».proof.Proof.KernelValue
import proofs.«110870_j26259430048704_2_alg».proof.Proof.RefRun
import proofs.«110870_j26259430048704_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- The reference's bit mask is the kernel program's, spelt in the other program's names: the same scatter of the same bits. -/
theorem mask_bits (e : Cert.ReferenceIdeal.S2047x2047.Idx → BitVec 32) :
    Cert.ReferenceIdeal.ReadP.val_main_v28 (F := Ideal) e = Cert.KernelIdeal.Whole.keepBits e := by
  unfold Cert.ReferenceIdeal.ReadP.val_main_v28 Cert.KernelIdeal.Whole.keepBits
  have hD : Cert.ReferenceIdeal.scatter_S2048x2048_S2_S2047x2047_01_n_01_0 = Cert.KernelIdeal.scatter_S2048x2048_S2_S2047x2047_01_n_01_0 := rfl
  have hA : Cert.ReferenceIdeal.ReadP.val_main_v22 (F := Ideal)
      = broadcastInDim Cert.KernelIdeal.S2048x2048 ![] Cert.KernelIdeal.Facts₀.bcast_S_S2048x2048 (constantI Cert.KernelIdeal.S_ 1 1#1) := rfl
  have hU : Cert.ReferenceIdeal.ReadP.val_main_v24 (F := Ideal) e = fun j => IntOp.cmpi .ne (e j) 0#32 := rfl
  rw [hD, hA, hU]
  rfl

/-- Both programs end at the specification of the (agreeing) argument arrays. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (Cert.KernelIdeal.Whole.keepBits (m ((c.tc : Thread Cert.KernelIdeal.nD Cert.KernelIdeal.τ).loc Cert.KernelIdeal.main_arg4))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Whole.value m ρ c), (h c).2⟩)
      (Cert.KernelIdeal.WholeRun.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ValueP.val_main_v44_eq, Cert.ReferenceIdeal.RefValue.result_eq, mask_bits,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
